-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x64 .f32) (main_arg3 : FVec F S64 .f32) (main_arg4 : FVec F S64x16 .f32) (main_arg5 : FVec F S16 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x256 : Shape := ⟨2, ![10000, 256]⟩
abbrev S10000x64 : Shape := ⟨2, ![10000, 64]⟩
abbrev S1700000x64 : Shape := ⟨2, ![1700000, 64]⟩
abbrev S1x64 : Shape := ⟨2, ![1, 64]⟩
abbrev S100000x16 : Shape := ⟨2, ![100000, 16]⟩
abbrev S10000x16 : Shape := ⟨2, ![10000, 16]⟩
abbrev S1700000x16 : Shape := ⟨2, ![1700000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 83
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S1700000x1, .f32⟩
  | .hbm, ⟨47, _⟩ => ⟨S100000x64, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x16, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x16, .f32⟩
  | .hbm, ⟨75, _⟩ => ⟨S1700000x16, .f32⟩
  | .hbm, ⟨76, _⟩ => ⟨S1700000x16, .f32⟩
  | .hbm, ⟨77, _⟩ => ⟨S_, .f32⟩
  | .hbm, ⟨78, _⟩ => ⟨S100000x16, .f32⟩
  | .hbm, ⟨79, _⟩ => ⟨S1700000x1, .i32⟩
  | .hbm, ⟨80, _⟩ => ⟨S100000x16, .f32⟩
  | .hbm, ⟨81, _⟩ => ⟨S1x16, .f32⟩
  | .hbm, ⟨82, _⟩ => ⟨S100000x16, .f32⟩
  | .local _ .vmem, ⟨0, _⟩ => ⟨S10000x256, .f32⟩
  | .local _ .vmem, ⟨1, _⟩ => ⟨S10000x256, .f32⟩
  | .local _ .vmem, ⟨2, _⟩ => ⟨S256x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x16, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S10000x16, .f32⟩
  | .local _ .vmem, ⟨17, _⟩ => ⟨S1x16, .f32⟩
  | .local _ .vmem, ⟨18, _⟩ => ⟨S10000x16, .f32⟩
  | .local _ .vmem, ⟨19, _⟩ => ⟨S10000x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S10000x64_S10000x64 : S10000x64.ShapeCasts S10000x64
  inb_S64x16_S64x16_0_0 : ∀ a, (![0, 0] : Fin 2 → Nat) a + S64x16.size a ≤ S64x16.size a
  h_S64x16 : 0 < S64x16.numel
  inb_S10000x16_S10000x16_0_0 : ∀ a, (![0, 0] : Fin 2 → Nat) a + S10000x16.size a ≤ S10000x16.size a
  h_S10000x16 : 0 < S10000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  shapeCasts_S10000x16_S10000x16 : S10000x16.ShapeCasts S10000x16
  reduces_S10000x16_S10000 : S10000x16.Reduces [1] S10000
  shapeCasts_S10000_S10000x1 : S10000.ShapeCasts S10000x1
  broadcasts_S10000x1_S10000x16 : S10000x1.Broadcasts S10000x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x256_S256x64_S10000x64_1_0_0_1_n_n_wf : DotDims.WF S10000x256 S256x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x16_S10000x16_1_0_0_1_n_n_wf : DotDims.WF S10000x64 S64x16 S10000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x16.size a ≤ S64x16.size a
  hwx2_1 : ∀ i : grid2.Coords, EltTy.bits .f32 = 32 ∨ (Rect.block (s := S64x16) S64x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x16.size a ≤ S100000x16.size a
  hwx3_2 : ∀ i : grid3.Coords, EltTy.bits .f32 = 32 ∨ (Rect.block (s := S100000x16) S10000x16.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S10000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x16 : Shape := ⟨2, ![100000, 16]⟩
abbrev S1700000x16 : Shape := ⟨2, ![1700000, 16]⟩
abbrev S1x16 : Shape := ⟨2, ![1, 16]⟩
abbrev S100000x1 : Shape := ⟨2, ![100000, 1]⟩

abbrev nBuf : Space → Nat
  | .hbm => 146
  | .vmem => 0
  | .smem => 0
  | _ => 0

abbrev hbmTy0_0 (i : Nat) : BufTy := match i % 128 with
  | 0 => ⟨S100000x256, .f32⟩
  | 1 => ⟨S2x1600000, .i32⟩
  | 2 => ⟨S256x64, .f32⟩
  | 3 => ⟨S64, .f32⟩
  | 4 => ⟨S64x16, .f32⟩
  | 5 => ⟨S16, .f32⟩
  | 6 => ⟨S1x1600000, .i32⟩
  | 7 => ⟨S1600000, .i32⟩
  | 8 => ⟨S100000, .i32⟩
  | 9 => ⟨S1700000, .i32⟩
  | 10 => ⟨S1x1600000, .i32⟩
  | 11 => ⟨S1600000, .i32⟩
  | 12 => ⟨S100000, .i32⟩
  | 13 => ⟨S1700000, .i32⟩
  | 14 => ⟨S100000x64, .f32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x64, .f32⟩
  | 57 => ⟨S1700000x1, .f32⟩
  | 58 => ⟨S1700000x64, .f32⟩
  | 59 => ⟨S1700000x64, .f32⟩
  | 60 => ⟨S_, .f32⟩
  | 61 => ⟨S100000x64, .f32⟩
  | 62 => ⟨S1700000x1, .i32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S1x1600000, .i32⟩
  | 71 => ⟨S1600000, .i32⟩
  | 72 => ⟨S100000, .i32⟩
  | 73 => ⟨S1700000, .i32⟩
  | 74 => ⟨S1x1600000, .i32⟩
  | 75 => ⟨S1600000, .i32⟩
  | 76 => ⟨S100000, .i32⟩
  | 77 => ⟨S1700000, .i32⟩
  | 78 => ⟨S100000x16, .f32⟩
  | 79 => ⟨S_, .f32⟩
  | 80 => ⟨S1700000, .f32⟩
  | 81 => ⟨S_, .f32⟩
  | 82 => ⟨S100000, .f32⟩
  | 83 => ⟨S1700000x1, .i32⟩
  | 84 => ⟨S100000, .f32⟩
  | 85 => ⟨S_, .f32⟩
  | 86 => ⟨S100000, .f32⟩
  | 87 => ⟨S100000, .i1⟩
  | 88 => ⟨S100000, .f32⟩
  | 89 => ⟨S_, .f32⟩
  | 90 => ⟨S_, .f32⟩
  | 91 => ⟨S100000, .f32⟩
  | 92 => ⟨S100000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S1700000, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x16, .f32⟩
  | 121 => ⟨S1700000x1, .f32⟩
  | 122 => ⟨S1700000x16, .f32⟩
  | 123 => ⟨S1700000x16, .f32⟩
  | 124 => ⟨S_, .f32⟩
  | 125 => ⟨S100000x16, .f32⟩
  | 126 => ⟨S1700000x1, .i32⟩
  | 127 => ⟨S100000x16, .f32⟩
  | _ => ⟨S100000x256, .f32⟩

abbrev hbmTy0_1 (i : Nat) : BufTy := match i % 128 with
  | 0 => ⟨S1x16, .f32⟩
  | 1 => ⟨S100000x16, .f32⟩
  | 2 => ⟨S100000x16, .f32⟩
  | 3 => ⟨S_, .f32⟩
  | 4 => ⟨S100000, .f32⟩
  | 5 => ⟨S_, .f32⟩
  | 6 => ⟨S100000, .f32⟩
  | 7 => ⟨S100000, .f32⟩
  | 8 => ⟨S100000x1, .f32⟩
  | 9 => ⟨S100000x16, .f32⟩
  | 10 => ⟨S100000x16, .f32⟩
  | 11 => ⟨S100000x16, .f32⟩
  | 12 => ⟨S_, .f32⟩
  | 13 => ⟨S100000, .f32⟩
  | 14 => ⟨S100000x1, .f32⟩
  | 15 => ⟨S100000x1, .f32⟩
  | 16 => ⟨S100000x16, .f32⟩
  | 17 => ⟨S100000x16, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_call2_v0 : Ref sig .tc := ⟨.hbm, 90, rfl⟩
abbrev main_call2_v1 : Ref sig .tc := ⟨.hbm, 91, rfl⟩
abbrev main_v65 : Ref sig .tc := ⟨.hbm, 92, rfl⟩
abbrev main_c_13 : Ref sig .tc := ⟨.hbm, 93, rfl⟩
abbrev main_v66 : Ref sig .tc := ⟨.hbm, 94, rfl⟩
abbrev main_v67 : Ref sig .tc := ⟨.hbm, 95, rfl⟩
abbrev main_c_14 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_15 : Ref sig .tc := ⟨.hbm, 102, rfl⟩
abbrev main_v73 : Ref sig .tc := ⟨.hbm, 103, rfl⟩
abbrev main_v74 : Ref sig .tc := ⟨.hbm, 104, rfl⟩
abbrev main_c_16 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_17 : Ref sig .tc := ⟨.hbm, 112, rfl⟩
abbrev main_v81 : Ref sig .tc := ⟨.hbm, 113, rfl⟩
abbrev main_v82 : Ref sig .tc := ⟨.hbm, 114, rfl⟩
abbrev main_c_18 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_19 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_call3_cst : Ref sig .tc := ⟨.hbm, 131, rfl⟩
abbrev main_call3_v0 : Ref sig .tc := ⟨.hbm, 132, rfl⟩
abbrev main_call3_cst_0 : Ref sig .tc := ⟨.hbm, 133, rfl⟩
abbrev main_call3_v1 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_call3_v5 : Ref sig .tc := ⟨.hbm, 138, rfl⟩
abbrev main_call3_v6 : Ref sig .tc := ⟨.hbm, 139, rfl⟩
abbrev main_call3_cst_1 : Ref sig .tc := ⟨.hbm, 140, rfl⟩
abbrev main_call3_v7 : Ref sig .tc := ⟨.hbm, 141, rfl⟩
abbrev main_call3_v8 : Ref sig .tc := ⟨.hbm, 142, rfl⟩
abbrev main_call3_v9 : Ref sig .tc := ⟨.hbm, 143, rfl⟩
abbrev main_call3_v10 : Ref sig .tc := ⟨.hbm, 144, rfl⟩
abbrev main_v97 : Ref sig .tc := ⟨.hbm, 145, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  dot_S100000x256_S256x64_S100000x64_1_0_0_1_n_n_wf : DotDims.WF S100000x256 S256x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x16_S100000x16_1_0_0_1_n_n_wf : DotDims.WF S100000x64 S64x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.KRun.lean ====
/-
  The idealized kernel program's run with its result named: @main is nine segments (host stretches and four
  pipelined regions); every weakly fair execution terminates with every unscoped buffer at the last boundary's
  contents, so the result buffer ends at the fold's value there and the arguments end as launched.  The statement
  is the frame's with one more buffer read off the same final thread state.
-/
import proofs.«127576_j27934467293291_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the contents the
    fold through the segments gives it and the six arguments as launched. -/
theorem run_out : θ_run defs (onTc (τ := τ) (main (F := F))) ⟨m, fun _ => 0, ρ⟩ (fun r => ∀ c : Dev nD,
      r.2.mem ((c.tc : Thread nD τ).loc main_v60) = W9 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v60 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.KRun

end
-- ==== Proof.Spec.lean ====
/-
  A two-layer graph convolution as ONE function of the six argument arrays.

  Notation (N = 100000 nodes, E = 1600000 edges, E + N = 1700000 edges with the self-loops appended):
  the edge list `e : 2 × E` gives sources `src = e[0] ++ [0..N)` and targets `dst = e[1] ++ [0..N)`;
  `deg[v] = #{j | dst[j] = v}` (a scatter-add of ones), `dinv = 1/sqrt(deg)` where `deg > 0` and `0` elsewhere,
  `norm[j] = dinv[src[j]] · dinv[dst[j]]`.  One layer maps node features `h : N × d` to
  `agg[v, :] = Σ_{j : dst[j] = v} h[src[j], :] · norm[j]` (gather, scale, scatter-add).  The network is
  `log_softmax (agg (relu (agg (x·W1) + b1) · W2) + b2)`.

  Every stage below is written with the host operations themselves (the same operations in both programs), so the
  reference's run meets it by unfolding, and so do the host stretches of the kernel program; only the four dense
  stages (`lin1`, `biasRelu`, `lin2`, `biasLogSoftmax`) are computed by kernels on the other side, block by block.
-/
import proofs.«127576_j27934467293291_1_alg».proof.ReferenceIdeal
import proofs.«127576_j27934467293291_1_alg».proof.Proof.Gen.ReferenceIdeal

noncomputable section

namespace Cert.Gcn

open Cert.ReferenceIdeal Cert.ReferenceIdeal.Gen Idealize.ShloMosaic Idealize.ShloMosaic.TcCoe

variable {F : FTy → Type} [FloatOps F]

/-- Integer arrays of a shape. -/
abbrev IT (F : FTy → Type) (S : Shape) : Type := (⟨S, .i32⟩ : BufTy).Contents (Elt F)
/-- Float arrays of a shape. -/
abbrev FT (F : FTy → Type) (S : Shape) : Type := (⟨S, .f32⟩ : BufTy).Contents (Elt F)

/-- Row 0 of the edge list followed by the self-loops `0, 1, …, N-1`: the source of every edge. -/
def src (e : IT F S2x1600000) : IT F S1700000 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- Row 1 of the edge list followed by the self-loops: the target of every edge. -/
def dst (e : IT F S2x1600000) : IT F S1700000 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node number read as an index: a negative one counts from the end (`v + N`). -/
def wrap (v : IT F S1700000) : IT F S1700000 :=
  select (cmpi .slt v (broadcastInDim S1700000 ![] bcast_S_S1700000 (constantI S_ 32 0#32))) (addi v (broadcastInDim S1700000 ![] bcast_S_S1700000 (constantI S_ 32 100000#32))) v

/-- A vector of indices as a one-column table, the form gather and scatter take. -/
def col (v : IT F S1700000) : IT F S1700000x1 :=
  broadcastInDim S1700000x1 ![0] bcast_S1700000_S1700000x1_0 v

/-- In-degree with self-loops: a one is added at the target of every edge. -/
def deg (e : IT F S2x1600000) : FT F S100000 :=
  Host.scatterAdd scatter_S100000_S1700000x1_S1700000_n_0_0_1 (broadcastInDim S100000 ![] bcast_S_S100000 (constant (F := F) S_ .f32 0x00000000#32)) (col (dst e)) (broadcastInDim S1700000 ![] bcast_S_S1700000 (constant (F := F) S_ .f32 0x3F800000#32))

/-- `1/sqrt(deg)` where the degree is positive, `0` elsewhere. -/
def dinv (e : IT F S2x1600000) : FT F S100000 :=
  select (cmpf .ogt (deg e) (broadcastInDim S100000 ![] bcast_S_S100000 (constant (F := F) S_ .f32 0x00000000#32))) (Host.rsqrt (deg e)) (broadcastInDim S100000 ![] bcast_S_S100000 (id (constant (F := F) S_ .f32 0x00000000#32)))

/-- The symmetric normalisation of edge `j`: `dinv[src j] · dinv[dst j]`. -/
def norm (e : IT F S2x1600000) : FT F S1700000 :=
  mulf (Host.gather gather_S100000_S1700000x1_S1700000_n_0_n_n_0_1_1 (dinv e) (col (wrap (src e)))) (Host.gather gather_S100000_S1700000x1_S1700000_n_0_n_n_0_1_1 (dinv e) (col (wrap (dst e))))

/-- The normalisation as a one-column table. -/
def normCol (e : IT F S2x1600000) : FT F S1700000x1 :=
  broadcastInDim S1700000x1 ![0] bcast_S1700000_S1700000x1_0 (norm e)

/-- One propagation step on 64 features: gather the source rows, scale by the edge's normalisation, add at the target. -/
def agg64 (e : IT F S2x1600000) (h : FT F S100000x64) : FT F S100000x64 :=
  Host.scatterAdd scatter_S100000x64_S1700000x1_S1700000x64_1_0_0_1 (broadcastInDim S100000x64 ![] bcast_S_S100000x64 (constant (F := F) S_ .f32 0x00000000#32)) (col (dst e)) (mulf (Host.gather gather_S100000x64_S1700000x1_S1700000x64_1_0_n_n_0_1_164 h (col (wrap (src e)))) (broadcastInDim S1700000x64 ![0, 1] bcast_S1700000x1_S1700000x64_0_1 (normCol e)))

/-- One propagation step on 16 features. -/
def agg16 (e : IT F S2x1600000) (h : FT F S100000x16) : FT F S100000x16 :=
  Host.scatterAdd scatter_S100000x16_S1700000x1_S1700000x16_1_0_0_1 (broadcastInDim S100000x16 ![] bcast_S_S100000x16 (constant (F := F) S_ .f32 0x00000000#32)) (col (dst e)) (mulf (Host.gather gather_S100000x16_S1700000x1_S1700000x16_1_0_n_n_0_1_116 h (col (wrap (src e)))) (broadcastInDim S1700000x16 ![0, 1] bcast_S1700000x1_S1700000x16_0_1 (normCol e)))

/-- The first linear map `x · W1`. -/
def lin1 (x : FT F S100000x256) (w : FT F S256x64) : FT F S100000x64 :=
  Host.dotGeneral dot_S100000x256_S256x64_S100000x64_1_0_0_1_n_n none x w

/-- The second linear map `h · W2`. -/
def lin2 (h : FT F S100000x64) (w : FT F S64x16) : FT F S100000x16 :=
  Host.dotGeneral dot_S100000x64_S64x16_S100000x16_1_0_0_1_n_n none h w

/-- `max (a + b, 0)`, the bias a row vector added to every row. -/
def biasRelu (a : FT F S100000x64) (b : FT F S1x64) : FT F S100000x64 :=
  maximumf (addf a (broadcastInDim S100000x64 ![0, 1] bcast_S1x64_S100000x64_0_1 b)) (broadcastInDim S100000x64 ![] bcast_S_S100000x64 (constant (F := F) S_ .f32 0x00000000#32))

/-- The bias row added to every row of the second layer's aggregate. -/
def addBias16 (a : FT F S100000x16) (b : FT F S1x16) : FT F S100000x16 :=
  addf a (broadcastInDim S100000x16 ![0, 1] bcast_S1x16_S100000x16_0_1 b)

/-- The row maximum `m[r] = max (-∞, max_j v[r, j])`. -/
def rowMax (v : FT F S100000x16) : FT F S100000 :=
  maximumf (broadcastInDim S100000 ![] bcast_S_S100000 (constant (F := F) S_ .f32 0xFF800000#32)) (Host.reduce FloatOps.maximumf v (constant (F := F) S_ .f32 0xFF800000#32) reducesTo_S100000x16_S100000_d1 h_S_)

/-- `v` with a per-row value `mx` subtracted from every entry of the row. -/
def shiftBy (v : FT F S100000x16) (mx : FT F S100000) : FT F S100000x16 :=
  subf v (broadcastInDim S100000x16 ![0, 1] bcast_S100000x1_S100000x16_0_1 (broadcastInDim S100000x1 ![0] bcast_S100000_S100000x1_0 mx))

/-- `v` with its row maximum subtracted. -/
def shifted (v : FT F S100000x16) : FT F S100000x16 := shiftBy v (rowMax v)

/-- `s - log Σ_j exp s[·, j]`, row by row. -/
def lsmOf (s : FT F S100000x16) : FT F S100000x16 :=
  subf s (broadcastInDim S100000x16 ![0, 1] bcast_S100000x1_S100000x16_0_1 (Host.log (broadcastInDim S100000x1 ![0] bcast_S100000_S100000x1_0 (Host.reduceAdd (Host.exp s) (constant (F := F) S_ .f32 0x00000000#32) reducesTo_S100000x16_S100000_d1 h_S_))))

/-- `log_softmax` along the rows: `s - log Σ_j exp s[·, j]` with `s` the shifted array. -/
def logSoftmax (v : FT F S100000x16) : FT F S100000x16 := lsmOf (shifted v)

/-- A bias vector as a one-row table (64 features). -/
def row64 (b : FT F S64) : FT F S1x64 := broadcastInDim S1x64 ![1] bcast_S64_S1x64_1 b
/-- A bias vector as a one-row table (16 features). -/
def row16 (b : FT F S16) : FT F S1x16 := broadcastInDim S1x16 ![1] bcast_S16_S1x16_1 b

/-- The hidden layer: `relu (agg (x·W1) + b1)`. -/
def hidden (x : FT F S100000x256) (e : IT F S2x1600000) (w1 : FT F S256x64) (b1 : FT F S64) : FT F S100000x64 :=
  biasRelu (agg64 e (lin1 x w1)) (row64 b1)

/-- The network's result. -/
def out (x : FT F S100000x256) (e : IT F S2x1600000) (w1 : FT F S256x64) (b1 : FT F S64) (w2 : FT F S64x16) (b2 : FT F S16) : FT F S100000x16 :=
  logSoftmax (addBias16 (agg16 e (lin2 (hidden x e w1 b1) w2)) (row16 b2))

end Cert.Gcn

end
-- ==== Proof.KBase.lean ====
/-
  Shared by the four region modules: the imports, and the one fact that the literal origin `![0, 0]` of a whole-block
  access is the zero function.
-/
import proofs.«127576_j27934467293291_1_alg».proof.Proof.Gen.KernelIdeal.Frame
import proofs.«127576_j27934467293291_1_alg».proof.Proof.Spec
import Idealize.ShloMosaic.Lib.Pipeline.Value
import Idealize.ShloMosaic.Lib.ValueIdx
import Idealize.ShloMosaic.Lib.ValueLayout
import Idealize.ShloMosaic.PureOps.Ideal.Laws

namespace Cert.KernelIdeal.KValue

theorem zero2 : (![0, 0] : Fin 2 → Nat) = fun _ => 0 := funext fun a => by fin_cases a <;> rfl

end Cert.KernelIdeal.KValue
-- ==== Proof.Lin1.lean ====
/-
  Region 0 of the kernel program (the first matmul kernel), read as a value at the ideal instance.  Point `t` of the
  ten-point grid stages rows `10000·t … 10000·t + 9999` of `x` (all 256 columns) and the whole of `W1`, and writes
  back their product; a change of float format is the identity at the ideal instance and the accumulator starts at
  zero, so entry `(p, q)` of the block is `Σ_k x[10000·t + p, k] · W1[k, q]` — entry `(10000·t + p, q)` of the host's
  `dot_general` of the whole arrays, which is the same sum.  The ten blocks cover all rows.
-/
import proofs.«127576_j27934467293291_1_alg».proof.Proof.KBase

set_option maxRecDepth 16384

noncomputable section

namespace Cert.KernelIdeal.KValue

open Cert.KernelIdeal Cert.KernelIdeal.Gen
open Idealize.ShloMosaic Idealize.ShloMosaic.TcCoe Idealize.ShloMosaic.ValueIdx
open Idealize.ShloMosaic.Pipeline (Dat Cfg Window)

/-- The host's product index by index: `Σ_k x[r, k] · w[k, q]`. -/
theorem lin1_eq (x : Cert.Gcn.FT Ideal S100000x256) (w : Cert.Gcn.FT Ideal S256x64) :
    Cert.Gcn.lin1 (F := Ideal) x w = fun i => ∑ k : Fin 256, x (ix2 (⟨(i 0).val, idx2_lt0 i⟩ : Fin 100000) k) * w (ix2 k (⟨(i 1).val, idx2_lt1 i⟩ : Fin 64)) := by
  funext i
  unfold Cert.Gcn.lin1
  simp only [Host.dotGeneral]
  rw [Ideal.dotGeneral_apply, ← Equiv.sum_comp (ValueIdx.contrEquiv1 Cert.ReferenceIdeal.dot_S100000x256_S256x64_S100000x64_1_0_0_1_n_n 256 rfl rfl).symm]
  refine Finset.sum_congr rfl fun k _ => ?_
  have hk := ValueIdx.contrEquiv1_symm_val Cert.ReferenceIdeal.dot_S100000x256_S256x64_S100000x64_1_0_0_1_n_n 256 rfl rfl k
  refine congrArg₂ (· * ·) (congrArg x (funext fun a => Fin.ext ?_)) (congrArg w (funext fun a => Fin.ext ?_))
  · match a with
    | ⟨0, _⟩ =>
      show (Cert.ReferenceIdeal.dot_S100000x256_S256x64_S100000x64_1_0_0_1_n_n.lhsIdx i _ 0).val = (i 0).val
      unfold DotDims.lhsIdx
      rw [dif_neg (show ¬(0 : Fin Cert.ReferenceIdeal.S100000x256.rank) ∈ Cert.ReferenceIdeal.dot_S100000x256_S256x64_S100000x64_1_0_0_1_n_n.lhsBatch by decide), dif_pos (show (0 : Fin Cert.ReferenceIdeal.S100000x256.rank) ∈ Cert.ReferenceIdeal.dot_S100000x256_S256x64_S100000x64_1_0_0_1_n_n.lhsNonContracting by decide)]
      rfl
    | ⟨1, _⟩ => exact (Cert.ReferenceIdeal.dot_S100000x256_S256x64_S100000x64_1_0_0_1_n_n.lhsIdx_val_of_single rfl i _).trans hk
  · match a with
    | ⟨0, _⟩ => exact (Cert.ReferenceIdeal.dot_S100000x256_S256x64_S100000x64_1_0_0_1_n_n.rhsIdx_val_of_single rfl i _).trans hk
    | ⟨1, _⟩ =>
      show (Cert.ReferenceIdeal.dot_S100000x256_S256x64_S100000x64_1_0_0_1_n_n.rhsIdx i _ 1).val = (i 1).val
      unfold DotDims.rhsIdx
      rw [dif_neg (show ¬(1 : Fin Cert.ReferenceIdeal.S256x64.rank) ∈ Cert.ReferenceIdeal.dot_S100000x256_S256x64_S100000x64_1_0_0_1_n_n.rhsBatch by decide), dif_pos (show (1 : Fin Cert.ReferenceIdeal.S256x64.rank) ∈ Cert.ReferenceIdeal.dot_S100000x256_S256x64_S100000x64_1_0_0_1_n_n.rhsNonContracting by decide)]
      rfl

/-- The kernel body's arithmetic index by index: `Σ_k a[p, k] · w[k, q]` of the staged blocks. -/
theorem lin1_payload (a : Vec Ideal S10000x256 .f32) (w : Vec Ideal S256x64 .f32) :
    k0_pay1 a w = fun y => ∑ k : Fin 256, a (ix2 (⟨(y 0).val, idx2_lt0 y⟩ : Fin 10000) k) * w (ix2 k (⟨(y 1).val, idx2_lt1 y⟩ : Fin 64)) := by
  funext y
  unfold k0_pay1
  refine (Ideal.matmul_constant_zero_apply dot_S10000x256_S256x64_S10000x64_1_0_0_1_n_n none (truncf .bf16 a bitsLt_bf16_f32) (truncf .bf16 w bitsLt_bf16_f32) y).trans ?_
  rw [← Equiv.sum_comp (ValueIdx.contrEquiv1 dot_S10000x256_S256x64_S10000x64_1_0_0_1_n_n 256 rfl rfl).symm]
  refine Finset.sum_congr rfl fun k _ => ?_
  have hk := ValueIdx.contrEquiv1_symm_val dot_S10000x256_S256x64_S10000x64_1_0_0_1_n_n 256 rfl rfl k
  show a (dot_S10000x256_S256x64_S10000x64_1_0_0_1_n_n.lhsIdx y _) * w (dot_S10000x256_S256x64_S10000x64_1_0_0_1_n_n.rhsIdx y _) = _
  refine congrArg₂ (· * ·) (congrArg a (funext fun ax => Fin.ext ?_)) (congrArg w (funext fun ax => Fin.ext ?_))
  · match ax with
    | ⟨0, _⟩ =>
      show (dot_S10000x256_S256x64_S10000x64_1_0_0_1_n_n.lhsIdx y _ 0).val = (y 0).val
      unfold DotDims.lhsIdx
      rw [dif_neg (show ¬(0 : Fin S10000x256.rank) ∈ dot_S10000x256_S256x64_S10000x64_1_0_0_1_n_n.lhsBatch by decide), dif_pos (show (0 : Fin S10000x256.rank) ∈ dot_S10000x256_S256x64_S10000x64_1_0_0_1_n_n.lhsNonContracting by decide)]
      rfl
    | ⟨1, _⟩ => exact (dot_S10000x256_S256x64_S10000x64_1_0_0_1_n_n.lhsIdx_val_of_single rfl y _).trans hk
  · match ax with
    | ⟨0, _⟩ => exact (dot_S10000x256_S256x64_S10000x64_1_0_0_1_n_n.rhsIdx_val_of_single rfl y _).trans hk
    | ⟨1, _⟩ =>
      show (dot_S10000x256_S256x64_S10000x64_1_0_0_1_n_n.rhsIdx y _ 1).val = (y 1).val
      unfold DotDims.rhsIdx
      rw [dif_neg (show ¬(1 : Fin S256x64.rank) ∈ dot_S10000x256_S256x64_S10000x64_1_0_0_1_n_n.rhsBatch by decide), dif_pos (show (1 : Fin S256x64.rank) ∈ dot_S10000x256_S256x64_S10000x64_1_0_0_1_n_n.rhsNonContracting by decide)]
      rfl

section Region
variable (V : (c : Dev nD) → (b : Ref sig .tc) → Buf (Elt Ideal) ((c : Thread nD τ).loc b))

/-- `x` as the region finds it, as a function into the extended reals. -/
abbrev xArr (c : Dev nD) : S100000x256.Idx → EReal := V c (Pipeline.arrRef spec0 0)
/-- `W1` as the region finds it, as a function into the extended reals. -/
abbrev wArr (c : Dev nD) : S256x64.Idx → EReal := V c (Pipeline.arrRef spec0 1)

/-- The printed index maps over the grid: `x`'s and the result's blocks are block `t` of the rows, `W1` is one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the host product of the arrays as the region finds them. -/
theorem flushed_lin1 (c : Dev nD) (t : Fin cfg0.N) :
    (dat0 V c).flushed 2 t = ((cfg0.win 2).blk t).view.read (Elt Ideal)
      (Cert.Gcn.lin1 (F := Ideal) (V c (Pipeline.arrRef spec0 0)) (V c (Pipeline.arrRef spec0 1))) := by
  show (cfg0.win 2).cut (grid0.coords t) ((dat0 V c).after 2 t) = _
  rw [after0_2]
  unfold out0_2
  rw [View.canon_unit_zero zero2]
  simp only [View.ld_unit_zero (S := S10000x256) zero2, View.ld_unit_zero (S := S256x64) zero2]
  rw [lin1_payload, lin1_eq]
  obtain ⟨e0, e1, e2, e3, e4, e5⟩ := idx0 t
  funext j
  show ∑ k : Fin 256, xArr V c (((cfg0.win 0).blk t).view.emb (ix2 (⟨(j 0).val, _⟩ : Fin 10000) k)) * wArr V c (((cfg0.win 1).blk t).view.emb (ix2 k (⟨(j 1).val, _⟩ : Fin 64)))
     = ∑ k : Fin 256, xArr V c (ix2 (⟨((((cfg0.win 2).blk t).view.emb j) 0).val, _⟩ : Fin 100000) k) * wArr V c (ix2 k (⟨((((cfg0.win 2).blk t).view.emb j) 1).val, _⟩ : Fin 64))
  refine Finset.sum_congr rfl fun k _ => ?_
  refine congrArg₂ (· * ·) (congrArg (xArr V c) (funext fun a => Fin.ext ?_)) (congrArg (wArr V c) (funext fun a => Fin.ext ?_))
  · match a with
    | ⟨0, _⟩ => show win0_0.index t (0 : Fin 2) * 10000 + 1 * (j 0).val = win0_2.index t (0 : Fin 2) * 10000 + 1 * (j 0).val; omega
    | ⟨1, _⟩ => show win0_0.index t (1 : Fin 2) * 256 + 1 * k.val = k.val; omega
  · match a with
    | ⟨0, _⟩ => show win0_1.index t (0 : Fin 2) * 256 + 1 * k.val = k.val; omega
    | ⟨1, _⟩ => show win0_1.index t (1 : Fin 2) * 64 + 1 * (j 1).val = win0_2.index t (1 : Fin 2) * 64 + 1 * (j 1).val; omega

/-- An index of the array is in point `t`'s block iff each coordinate is in the block's range on its axis. -/
theorem mem_blk_lin1 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v31).slice (win0_2.rect t)).set ↔ _
  rw [View.set_slice_whole, Rect.mem_set_unit]
  exact Iff.rfl

/-- Row `r` lies in the block of point `r / 10000`. -/
theorem cover_lin1 (i : S100000x64.Idx) : ∃ t : Fin cfg0.N, (cfg0.win 2).flush t = true ∧ i ∈ ((cfg0.win 2).blk t).view.set := by
  have hi0 : (i 0).val < 100000 := idx2_lt0 i
  have hi1 : (i 1).val < 64 := idx2_lt1 i
  obtain ⟨t, ht⟩ : ∃ t : Fin cfg0.N, t.val = (i 0).val / 10000 := ⟨⟨(i 0).val / 10000, by show _ < grid0.N; rw [N_0]; omega⟩, rfl⟩
  obtain ⟨e0, e1, e2, e3, e4, e5⟩ := idx0 t
  refine ⟨t, flush0_2 t, ?_⟩
  rw [mem_blk_lin1]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The region's result array ends at the host product of the two arrays it read. -/
theorem final_lin1 (c : Dev nD) : (dat0 V c).arrAt 2 cfg0.N
    = Cert.Gcn.lin1 (F := Ideal) (V c (Pipeline.arrRef spec0 0)) (V c (Pipeline.arrRef spec0 1)) :=
  (dat0 V c).arrAt_eq_of_cover 2 _ (fun t _ => flushed_lin1 V c t) cover_lin1

end Region

end Cert.KernelIdeal.KValue

end
-- ==== Proof.Lin2.lean ====
/-
  Region 2 of the kernel program (the second matmul kernel), read as a value at the ideal instance.  Point `t` of the
  ten-point grid stages rows `10000·t … 10000·t + 9999` of the hidden layer (all 64 columns) and the whole of `W2`,
  and writes back their product: entry `(p, q)` of the block is `Σ_k h[10000·t + p, k] · W2[k, q]`, which is entry
  `(10000·t + p, q)` of the host's `dot_general` of the whole arrays.  The ten blocks cover all rows.
-/
import proofs.«127576_j27934467293291_1_alg».proof.Proof.KBase

set_option maxRecDepth 16384

noncomputable section

namespace Cert.KernelIdeal.KValue

open Cert.KernelIdeal Cert.KernelIdeal.Gen
open Idealize.ShloMosaic Idealize.ShloMosaic.TcCoe Idealize.ShloMosaic.ValueIdx
open Idealize.ShloMosaic.Pipeline (Dat Cfg Window)

/-- The host's product index by index: `Σ_k x[r, k] · w[k, q]`. -/
theorem lin2_eq (x : Cert.Gcn.FT Ideal S100000x64) (w : Cert.Gcn.FT Ideal S64x16) :
    Cert.Gcn.lin2 (F := Ideal) x w = fun i => ∑ k : Fin 64, x (ix2 (⟨(i 0).val, idx2_lt0 i⟩ : Fin 100000) k) * w (ix2 k (⟨(i 1).val, idx2_lt1 i⟩ : Fin 16)) := by
  funext i
  unfold Cert.Gcn.lin2
  simp only [Host.dotGeneral]
  rw [Ideal.dotGeneral_apply, ← Equiv.sum_comp (ValueIdx.contrEquiv1 Cert.ReferenceIdeal.dot_S100000x64_S64x16_S100000x16_1_0_0_1_n_n 64 rfl rfl).symm]
  refine Finset.sum_congr rfl fun k _ => ?_
  have hk := ValueIdx.contrEquiv1_symm_val Cert.ReferenceIdeal.dot_S100000x64_S64x16_S100000x16_1_0_0_1_n_n 64 rfl rfl k
  refine congrArg₂ (· * ·) (congrArg x (funext fun a => Fin.ext ?_)) (congrArg w (funext fun a => Fin.ext ?_))
  · match a with
    | ⟨0, _⟩ =>
      show (Cert.ReferenceIdeal.dot_S100000x64_S64x16_S100000x16_1_0_0_1_n_n.lhsIdx i _ 0).val = (i 0).val
      unfold DotDims.lhsIdx
      rw [dif_neg (show ¬(0 : Fin Cert.ReferenceIdeal.S100000x64.rank) ∈ Cert.ReferenceIdeal.dot_S100000x64_S64x16_S100000x16_1_0_0_1_n_n.lhsBatch by decide), dif_pos (show (0 : Fin Cert.ReferenceIdeal.S100000x64.rank) ∈ Cert.ReferenceIdeal.dot_S100000x64_S64x16_S100000x16_1_0_0_1_n_n.lhsNonContracting by decide)]
      rfl
    | ⟨1, _⟩ => exact (Cert.ReferenceIdeal.dot_S100000x64_S64x16_S100000x16_1_0_0_1_n_n.lhsIdx_val_of_single rfl i _).trans hk
  · match a with
    | ⟨0, _⟩ => exact (Cert.ReferenceIdeal.dot_S100000x64_S64x16_S100000x16_1_0_0_1_n_n.rhsIdx_val_of_single rfl i _).trans hk
    | ⟨1, _⟩ =>
      show (Cert.ReferenceIdeal.dot_S100000x64_S64x16_S100000x16_1_0_0_1_n_n.rhsIdx i _ 1).val = (i 1).val
      unfold DotDims.rhsIdx
      rw [dif_neg (show ¬(1 : Fin Cert.ReferenceIdeal.S64x16.rank) ∈ Cert.ReferenceIdeal.dot_S100000x64_S64x16_S100000x16_1_0_0_1_n_n.rhsBatch by decide), dif_pos (show (1 : Fin Cert.ReferenceIdeal.S64x16.rank) ∈ Cert.ReferenceIdeal.dot_S100000x64_S64x16_S100000x16_1_0_0_1_n_n.rhsNonContracting by decide)]
      rfl

/-- The kernel body's arithmetic index by index: `Σ_k a[p, k] · w[k, q]` of the staged blocks. -/
theorem lin2_payload (a : Vec Ideal S10000x64 .f32) (w : Vec Ideal S64x16 .f32) :
    k2_pay1 a w = fun y => ∑ k : Fin 64, a (ix2 (⟨(y 0).val, idx2_lt0 y⟩ : Fin 10000) k) * w (ix2 k (⟨(y 1).val, idx2_lt1 y⟩ : Fin 16)) := by
  funext y
  unfold k2_pay1
  refine (Ideal.matmul_constant_zero_apply dot_S10000x64_S64x16_S10000x16_1_0_0_1_n_n none (truncf .bf16 (shapeCast S10000x64 a shapeCasts_S10000x64_S10000x64) bitsLt_bf16_f32) (truncf .bf16 w bitsLt_bf16_f32) y).trans ?_
  rw [shapeCast_self]
  rw [← Equiv.sum_comp (ValueIdx.contrEquiv1 dot_S10000x64_S64x16_S10000x16_1_0_0_1_n_n 64 rfl rfl).symm]
  refine Finset.sum_congr rfl fun k _ => ?_
  have hk := ValueIdx.contrEquiv1_symm_val dot_S10000x64_S64x16_S10000x16_1_0_0_1_n_n 64 rfl rfl k
  show a (dot_S10000x64_S64x16_S10000x16_1_0_0_1_n_n.lhsIdx y _) * w (dot_S10000x64_S64x16_S10000x16_1_0_0_1_n_n.rhsIdx y _) = _
  refine congrArg₂ (· * ·) (congrArg a (funext fun ax => Fin.ext ?_)) (congrArg w (funext fun ax => Fin.ext ?_))
  · match ax with
    | ⟨0, _⟩ =>
      show (dot_S10000x64_S64x16_S10000x16_1_0_0_1_n_n.lhsIdx y _ 0).val = (y 0).val
      unfold DotDims.lhsIdx
      rw [dif_neg (show ¬(0 : Fin S10000x64.rank) ∈ dot_S10000x64_S64x16_S10000x16_1_0_0_1_n_n.lhsBatch by decide), dif_pos (show (0 : Fin S10000x64.rank) ∈ dot_S10000x64_S64x16_S10000x16_1_0_0_1_n_n.lhsNonContracting by decide)]
      rfl
    | ⟨1, _⟩ => exact (dot_S10000x64_S64x16_S10000x16_1_0_0_1_n_n.lhsIdx_val_of_single rfl y _).trans hk
  · match ax with
    | ⟨0, _⟩ => exact (dot_S10000x64_S64x16_S10000x16_1_0_0_1_n_n.rhsIdx_val_of_single rfl y _).trans hk
    | ⟨1, _⟩ =>
      show (dot_S10000x64_S64x16_S10000x16_1_0_0_1_n_n.rhsIdx y _ 1).val = (y 1).val
      unfold DotDims.rhsIdx
      rw [dif_neg (show ¬(1 : Fin S64x16.rank) ∈ dot_S10000x64_S64x16_S10000x16_1_0_0_1_n_n.rhsBatch by decide), dif_pos (show (1 : Fin S64x16.rank) ∈ dot_S10000x64_S64x16_S10000x16_1_0_0_1_n_n.rhsNonContracting by decide)]
      rfl

section Region
variable (V : (c : Dev nD) → (b : Ref sig .tc) → Buf (Elt Ideal) ((c : Thread nD τ).loc b))

/-- The hidden layer as the region finds it, as a function into the extended reals. -/
abbrev hArr (c : Dev nD) : S100000x64.Idx → EReal := V c (Pipeline.arrRef spec2 0)
/-- `W2` as the region finds it, as a function into the extended reals. -/
abbrev w2Arr (c : Dev nD) : S64x16.Idx → EReal := V c (Pipeline.arrRef spec2 1)

/-- The printed index maps over the grid: the hidden layer's and the result's blocks are block `t` of the rows, `W2` is one block. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the host product of the arrays as the region finds them. -/
theorem flushed_lin2 (c : Dev nD) (t : Fin cfg2.N) :
    (dat2 V c).flushed 2 t = ((cfg2.win 2).blk t).view.read (Elt Ideal)
      (Cert.Gcn.lin2 (F := Ideal) (V c (Pipeline.arrRef spec2 0)) (V c (Pipeline.arrRef spec2 1))) := by
  show (cfg2.win 2).cut (grid2.coords t) ((dat2 V c).after 2 t) = _
  rw [after2_2]
  unfold out2_2
  rw [View.canon_unit_zero zero2]
  simp only [View.ld_unit_zero (S := S10000x64) zero2, View.ld_unit_zero (S := S64x16) zero2]
  rw [lin2_payload, lin2_eq]
  obtain ⟨e0, e1, e2, e3, e4, e5⟩ := idx2 t
  funext j
  show ∑ k : Fin 64, hArr V c (((cfg2.win 0).blk t).view.emb (ix2 (⟨(j 0).val, _⟩ : Fin 10000) k)) * w2Arr V c (((cfg2.win 1).blk t).view.emb (ix2 k (⟨(j 1).val, _⟩ : Fin 16)))
     = ∑ k : Fin 64, hArr V c (ix2 (⟨((((cfg2.win 2).blk t).view.emb j) 0).val, _⟩ : Fin 100000) k) * w2Arr V c (ix2 k (⟨((((cfg2.win 2).blk t).view.emb j) 1).val, _⟩ : Fin 16))
  refine Finset.sum_congr rfl fun k _ => ?_
  refine congrArg₂ (· * ·) (congrArg (hArr V c) (funext fun a => Fin.ext ?_)) (congrArg (w2Arr V c) (funext fun a => Fin.ext ?_))
  · match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * k.val = k.val; omega
  · match a with
    | ⟨0, _⟩ => show win2_1.index t (0 : Fin 2) * 64 + 1 * k.val = k.val; omega
    | ⟨1, _⟩ => show win2_1.index t (1 : Fin 2) * 16 + 1 * (j 1).val = win2_2.index t (1 : Fin 2) * 16 + 1 * (j 1).val; omega

/-- An index of the array is in point `t`'s block iff each coordinate is in the block's range on its axis. -/
theorem mem_blk_lin2 (t : Fin cfg2.N) (i : S100000x16.Idx) :
    i ∈ ((cfg2.win 2).blk t).view.set ↔ ∀ a : Fin 2, win2_2.index t a * S10000x16.size a ≤ (i a).val ∧ (i a).val < win2_2.index t a * S10000x16.size a + S10000x16.size a := by
  show i ∈ ((View.whole main_v46).slice (win2_2.rect t)).set ↔ _
  rw [View.set_slice_whole, Rect.mem_set_unit]
  exact Iff.rfl

/-- Row `r` lies in the block of point `r / 10000`. -/
theorem cover_lin2 (i : S100000x16.Idx) : ∃ t : Fin cfg2.N, (cfg2.win 2).flush t = true ∧ i ∈ ((cfg2.win 2).blk t).view.set := by
  have hi0 : (i 0).val < 100000 := idx2_lt0 i
  have hi1 : (i 1).val < 16 := idx2_lt1 i
  obtain ⟨t, ht⟩ : ∃ t : Fin cfg2.N, t.val = (i 0).val / 10000 := ⟨⟨(i 0).val / 10000, by show _ < grid2.N; rw [N_2]; omega⟩, rfl⟩
  obtain ⟨e0, e1, e2, e3, e4, e5⟩ := idx2 t
  refine ⟨t, flush2_2 t, ?_⟩
  rw [mem_blk_lin2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 16 + 16; omega

/-- The region's result array ends at the host product of the two arrays it read. -/
theorem final_lin2 (c : Dev nD) : (dat2 V c).arrAt 2 cfg2.N
    = Cert.Gcn.lin2 (F := Ideal) (V c (Pipeline.arrRef spec2 0)) (V c (Pipeline.arrRef spec2 1)) :=
  (dat2 V c).arrAt_eq_of_cover 2 _ (fun t _ => flushed_lin2 V c t) cover_lin2

end Region

end Cert.KernelIdeal.KValue

end
-- ==== Proof.Relu.lean ====
/-
  Region 1 of the kernel program (the bias + relu kernel), read as a value.  The grid has ten points; point `t` stages
  rows `10000·t … 10000·t + 9999` of the aggregate (all 64 columns) and the one bias row, and writes back
  `max (a + b, 0)` of that block.  A block's rows are rows of the array (`row = 10000·t + row inside the block`), so
  what point `t` writes back is block `t` of `Cert.Gcn.biasRelu` of the whole arrays, and the ten blocks cover all
  100000 rows (row `r` lies in block `r / 10000`): the array ends at `biasRelu` of the arrays the region found.
-/
import proofs.«127576_j27934467293291_1_alg».proof.Proof.KBase

set_option maxRecDepth 16384

noncomputable section

namespace Cert.KernelIdeal.KValue

open Cert.KernelIdeal Cert.KernelIdeal.Gen
open Idealize.ShloMosaic Idealize.ShloMosaic.TcCoe Idealize.ShloMosaic.ValueIdx
open Idealize.ShloMosaic.Pipeline (Dat Cfg Window)

variable {F : FTy → Type} [FloatOps F]

/-- The bias row's entry above column `i 1`. -/
abbrev biasIdx64 (i : S100000x64.Idx) : S1x64.Idx := ix2 (0 : Fin 1) ⟨(i 1).val, idx2_lt1 i⟩

/-- `biasRelu` index by index: `max (a[r, q] + b[0, q], 0)`. -/
theorem biasRelu_eq (a : Cert.Gcn.FT F S100000x64) (b : Cert.Gcn.FT F S1x64) :
    Cert.Gcn.biasRelu (F := F) a b = fun i => FloatOps.maximumf (FloatOps.addf (a i) (b (biasIdx64 i))) (Scalar.ofBits .f32 0x00000000#32) := by
  funext i
  unfold Cert.Gcn.biasRelu
  show FloatOps.maximumf (FloatOps.addf (a i) (broadcastInDim _ _ _ b i)) (broadcastInDim _ _ _ (constant (F := F) S_ .f32 0x00000000#32) i) = _
  rw [broadcastInDim_apply _ _ b i (biasIdx64 i) (by intro ax; match ax with | ⟨0, _⟩ => rfl | ⟨1, _⟩ => rfl)]
  rfl

/-- The kernel body's arithmetic index by index: `max (a[p, q] + b[0, q], 0)` of the staged block and bias row. -/
theorem relu_payload (b : Vec F S1x64 .f32) (a : Vec F S10000x64 .f32) :
    k1_pay1 b a = fun y => FloatOps.maximumf (FloatOps.addf (a y) (b (ix2 (0 : Fin 1) ⟨(y 1).val, idx2_lt1 y⟩))) (Scalar.ofBits .f32 0x00000000#32) := by
  funext y
  obtain ⟨p, q, rfl⟩ : ∃ (p : Fin 10000) (q : Fin 64), y = ix2 p q := ⟨y 0, y 1, eq_ix2 y⟩
  unfold k1_pay1
  show FloatOps.maximumf (FloatOps.addf (shapeCast S10000x64 a _ (ix2 p q)) (broadcastTo S10000x64 (shapeCast S1x64 (shapeCast S1x64 b _) _) _ (ix2 p q))) _ = _
  rw [shapeCast_self, shapeCast_self, shapeCast_self, broadcastTo_1b_ab_apply]
  rfl

section Region
variable (V : (c : Dev nD) → (b : Ref sig .tc) → Buf (Elt F) ((c : Thread nD τ).loc b))

/-- The printed index maps over the grid: the aggregate's and the result's blocks are block `t` of the rows, the bias
    row is always block 0. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `biasRelu` of the arrays as the region finds them. -/
theorem flushed_relu (c : Dev nD) (t : Fin cfg1.N) :
    (dat1 V c).flushed 2 t = ((cfg1.win 2).blk t).view.read (Elt F)
      (Cert.Gcn.biasRelu (F := F) (V c (Pipeline.arrRef spec1 0)) (V c (Pipeline.arrRef spec1 1))) := by
  show (cfg1.win 2).cut (grid1.coords t) ((dat1 V c).after 2 t) = _
  rw [after1_2]
  unfold out1_2
  rw [View.canon_unit_zero zero2]
  simp only [View.ld_unit_zero (S := S10000x64) zero2, View.ld_unit_zero (S := S1x64) zero2]
  rw [relu_payload, biasRelu_eq]
  obtain ⟨e0, e1, e2, e3, e4, e5⟩ := idx1 t
  funext j
  show FloatOps.maximumf (FloatOps.addf (V c (Pipeline.arrRef spec1 0) (((cfg1.win 0).blk t).view.emb j)) (V c (Pipeline.arrRef spec1 1) (((cfg1.win 1).blk t).view.emb (ix2 (0 : Fin 1) ⟨(j 1).val, _⟩)))) _
     = FloatOps.maximumf (FloatOps.addf (V c (Pipeline.arrRef spec1 0) (((cfg1.win 2).blk t).view.emb j)) (V c (Pipeline.arrRef spec1 1) (biasIdx64 (((cfg1.win 2).blk t).view.emb j)))) _
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  rw [h0]
  refine congrArg (fun z => FloatOps.maximumf (FloatOps.addf _ (V c (Pipeline.arrRef spec1 1) z)) _) ?_
  funext a; apply Fin.ext
  match a with
  | ⟨0, _⟩ => show win1_1.index t (0 : Fin 2) * 1 + 1 * 0 = 0; omega
  | ⟨1, _⟩ => show win1_1.index t (1 : Fin 2) * 64 + 1 * (j 1).val = win1_2.index t (1 : Fin 2) * 64 + 1 * (j 1).val; omega

/-- An index of the array is in point `t`'s block iff each coordinate is in the block's range on its axis. -/
theorem mem_blk_relu (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- Row `r` lies in the block of point `r / 10000`. -/
theorem cover_relu (i : S100000x64.Idx) : ∃ t : Fin cfg1.N, (cfg1.win 2).flush t = true ∧ i ∈ ((cfg1.win 2).blk t).view.set := by
  have hi0 : (i 0).val < 100000 := idx2_lt0 i
  have hi1 : (i 1).val < 64 := idx2_lt1 i
  obtain ⟨t, ht⟩ : ∃ t : Fin cfg1.N, t.val = (i 0).val / 10000 := ⟨⟨(i 0).val / 10000, by show _ < grid1.N; rw [N_1]; omega⟩, rfl⟩
  obtain ⟨e0, e1, e2, e3, e4, e5⟩ := idx1 t
  refine ⟨t, flush1_2 t, ?_⟩
  rw [mem_blk_relu]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The region's result array ends at `biasRelu` of the two arrays it read. -/
theorem final_relu (c : Dev nD) : (dat1 V c).arrAt 2 cfg1.N
    = Cert.Gcn.biasRelu (F := F) (V c (Pipeline.arrRef spec1 0)) (V c (Pipeline.arrRef spec1 1)) :=
  (dat1 V c).arrAt_eq_of_cover 2 _ (fun t _ => flushed_relu V c t) cover_relu

end Region

end Cert.KernelIdeal.KValue

end
-- ==== Proof.LogSoftmax.lean ====
/-
  Region 3 of the kernel program (the bias + log-softmax kernel), read as a value at the ideal instance.  Point `t`
  stages rows `10000·t … 10000·t + 9999` of the second aggregate (16 columns) and the bias row, and writes back, row by
  row, `s - log Σ_k exp s_k` with `s = u - max (-∞, u_0, …, u_15)` and `u` the row plus the bias (`rowLsm`).  The
  host's `log_softmax` of the whole biased array is the same function of each row (its extra `max (-∞, ·)` around the
  row maximum changes nothing), so what point `t` writes back is block `t` of it, and the ten blocks cover all rows.
-/
import proofs.«127576_j27934467293291_1_alg».proof.Proof.KBase
import Idealize.ShloMosaic.Lib.IdealHost

set_option maxRecDepth 16384

noncomputable section

namespace Cert.KernelIdeal.KValue

open Cert.KernelIdeal Cert.KernelIdeal.Gen
open Idealize.ShloMosaic Idealize.ShloMosaic.TcCoe Idealize.ShloMosaic.ValueIdx
open Idealize.ShloMosaic.Pipeline (Dat Cfg Window)

/-- The maximum of a row of sixteen extended reals, folded from `-∞`. -/
def rowMx (u : Fin 16 → EReal) : EReal := (Finset.univ : Finset (Fin 16)).fold max (Ideal.ofBits .f32 0xFF800000#32) u

/-- `log_softmax` of one row at column `q`: `(u q - m) - log Σ_k exp (u k - m)` with `m` the row's maximum. -/
def rowLsm (u : Fin 16 → EReal) (q : Fin 16) : EReal :=
  (u q - rowMx u) - Ideal.log (∑ k : Fin 16, Ideal.exp (u k - rowMx u))

/-- A vector recast as a one-column table reads the vector's entry. -/
theorem colCast_apply {α : Type} (u : S10000.Idx → α) (h : S10000.ShapeCasts S10000x1) (p : Fin 10000) (z : Fin 1) :
    shapeCast S10000x1 u h (ix2 p z) = u (ix1 p) :=
  shapeCast_apply u h _ _ (by
    have hz : z.val = 0 := by omega
    rw [Shape.rowMajor_val_one, Shape.rowMajor_val_two]
    show p.val = p.val * 1 + z.val
    omega)

/-- A one-column table broadcast along the rows reads the column's entry. -/
theorem colBcast_apply {α : Type} (w : S10000x1.Idx → α) (h : S10000x1.Broadcasts S10000x16) (p : Fin 10000) (q : Fin 16) :
    broadcastTo S10000x16 w h (ix2 p q) = w (ix2 p (0 : Fin 1)) := by
  refine broadcastTo_apply w h (ix2 p q) (ix2 p (0 : Fin 1)) fun ax => ?_
  match ax with
  | ⟨0, _⟩ => rfl
  | ⟨1, _⟩ => rfl

/-- A lane maximum from `-∞` at row `p` is the row's maximum. -/
theorem rowmax_apply (v : FVec Ideal S10000x16 .f32) (h1 : FKind.Formats .f32) (h2 : (0xFF800000#32 : BitVec 32) = FKind.maximumf.neutral .f32 h1) (p : Fin 10000) :
    multiReduction .maximumf [1] S10000 v 0xFF800000#32 reduces_S10000x16_S10000 h1 h2 (ix1 p) = rowMx (fun k => v (ix2 p k)) := by
  refine (Ideal.multiReduction_maximumf_single v _ reduces_S10000x16_S10000 h1 h2 (ix1 p)).trans ?_
  show (Finset.univ : Finset (Fin 16)).fold max (Ideal.ofBits .f32 0xFF800000#32) (v ∘ reduces_S10000x16_S10000.lift (ix1 p)) = _
  unfold rowMx
  refine congrArg (fun f => (Finset.univ : Finset (Fin 16)).fold max (Ideal.ofBits .f32 0xFF800000#32) f) (funext fun k => ?_)
  exact congrArg v (funext fun ax => Fin.ext (by match ax with | ⟨0, _⟩ => rfl | ⟨1, _⟩ => rfl))

/-- A lane sum from zero at row `p` is the row's sum. -/
theorem rowsum_apply (w : FVec Ideal S10000x16 .f32) (h1 : FKind.Formats .f32) (h3 : (0x00000000#32 : BitVec 32) = FKind.add.neutral .f32 h1) (p : Fin 10000) :
    multiReduction .add [1] S10000 w 0x00000000#32 reduces_S10000x16_S10000 h1 h3 (ix1 p) = ∑ k : Fin 16, w (ix2 p k) := by
  refine (Ideal.multiReduction_add_single w _ reduces_S10000x16_S10000 h1 h3 (ix1 p)).trans ?_
  show ∑ k : Fin 16, w (reduces_S10000x16_S10000.lift (ix1 p) k) = _
  refine Finset.sum_congr rfl fun k _ => ?_
  exact congrArg w (funext fun ax => Fin.ext (by match ax with | ⟨0, _⟩ => rfl | ⟨1, _⟩ => rfl))

/-- The body's chain after the bias is added: maximum, shift, exponentials, their sum, its logarithm, the difference. -/
theorem lsm_core (v : FVec Ideal S10000x16 .f32) (h1 : FKind.Formats .f32) (h2 : (0xFF800000#32 : BitVec 32) = FKind.maximumf.neutral .f32 h1)
    (h3 : (0x00000000#32 : BitVec 32) = FKind.add.neutral .f32 h1) (p : Fin 10000) (q : Fin 16) :
    subf (subf v (broadcastTo S10000x16 (shapeCast S10000x1 (multiReduction .maximumf [1] S10000 v 0xFF800000#32 reduces_S10000x16_S10000 h1 h2) shapeCasts_S10000_S10000x1) broadcasts_S10000x1_S10000x16))
      (broadcastTo S10000x16 (log (shapeCast S10000x1 (multiReduction .add [1] S10000 (exp (subf v (broadcastTo S10000x16 (shapeCast S10000x1 (multiReduction .maximumf [1] S10000 v 0xFF800000#32 reduces_S10000x16_S10000 h1 h2) shapeCasts_S10000_S10000x1) broadcasts_S10000x1_S10000x16))) 0x00000000#32 reduces_S10000x16_S10000 h1 h3) shapeCasts_S10000_S10000x1)) broadcasts_S10000x1_S10000x16) (ix2 p q)
    = rowLsm (fun k => v (ix2 p k)) q := by
  show (v (ix2 p q) - broadcastTo S10000x16 _ _ (ix2 p q)) - broadcastTo S10000x16 _ _ (ix2 p q) = _
  rw [colBcast_apply, colBcast_apply, colCast_apply]
  show (v (ix2 p q) - _) - Ideal.log (shapeCast S10000x1 _ _ (ix2 p 0)) = _
  rw [colCast_apply, rowmax_apply, rowsum_apply]
  unfold rowLsm
  refine congrArg (fun s => (v (ix2 p q) - rowMx (fun k => v (ix2 p k))) - Ideal.log s) (Finset.sum_congr rfl fun k _ => ?_)
  show Ideal.exp (v (ix2 p k) - broadcastTo S10000x16 _ _ (ix2 p k)) = _
  rw [colBcast_apply, colCast_apply, rowmax_apply]

/-- The kernel body's arithmetic index by index: the row's log-softmax of block plus bias. -/
theorem lsm_payload (b : Vec Ideal S1x16 .f32) (a : Vec Ideal S10000x16 .f32) :
    k3_pay1 b a = fun y => rowLsm (fun k => a (ix2 (⟨(y 0).val, idx2_lt0 y⟩ : Fin 10000) k) + b (ix2 (0 : Fin 1) k)) (⟨(y 1).val, idx2_lt1 y⟩ : Fin 16) := by
  funext y
  obtain ⟨p, q, rfl⟩ : ∃ (p : Fin 10000) (q : Fin 16), y = ix2 p q := ⟨y 0, y 1, eq_ix2 y⟩
  unfold k3_pay1
  refine (lsm_core _ _ _ _ p q).trans ?_
  refine congrArg (fun u => rowLsm u q) (funext fun k => ?_)
  show FloatOps.addf (F := Ideal) (φ := .f32) (shapeCast S10000x16 a _ (ix2 p k)) (broadcastTo S10000x16 _ _ (ix2 p k)) = _
  rw [shapeCast_self, shapeCast_self, shapeCast_self, broadcastTo_1b_ab_apply]
  rfl

/-! ## The host's `log_softmax` row by row -/

/-- The float word of `-∞` is the least extended real: a maximum with it changes nothing. -/
theorem max_negInf (y : EReal) : max (Ideal.ofBits .f32 0xFF800000#32) y = y := by
  simp [Ideal.ofBits, Ideal.ieee]

/-- The host's maximum over the columns, from `-∞`, at row `r` is the row's maximum. -/
theorem hostReduceMax_apply (v : FVec Ideal S100000x16 .f32) (h' : S100000x16.ReducesTo [1] S100000) (hu : 0 < S_.numel) (r : Fin 100000) :
    Host.reduce (FloatOps.maximumf (F := Ideal) (φ := .f32)) v (constant (F := Ideal) S_ .f32 0xFF800000#32) h' hu (ix1 r) = rowMx (fun k => v (ix2 r k)) := by
  have h : S100000x16.Reduces [1] S100000 := by decide
  refine (Host.reduce_eq_fold_single (FloatOps.maximumf (F := Ideal) (φ := .f32)) v _ h' h hu (ix1 r)).trans ?_
  unfold rowMx
  refine congrArg (fun f => (Finset.univ : Finset (Fin 16)).fold max (Ideal.ofBits .f32 0xFF800000#32) f) (funext fun k => ?_)
  exact congrArg v (funext fun ax => Fin.ext (by match ax with | ⟨0, _⟩ => rfl | ⟨1, _⟩ => rfl))

/-- The host's sum over the columns, from zero, at row `r` is the row's sum. -/
theorem hostReduceAdd_row (w : FVec Ideal S100000x16 .f32) (h' : S100000x16.ReducesTo [1] S100000) (hu : 0 < S_.numel) (r : Fin 100000) :
    Host.reduceAdd w (constant (F := Ideal) S_ .f32 0x00000000#32) h' hu (ix1 r) = ∑ k : Fin 16, w (ix2 r k) := by
  have h : S100000x16.Reduces [1] S100000 := by decide
  refine (hostReduceAdd_apply w _ h' hu (ix1 r)).trans ((Ideal.hostReduceAdd_single h' h w _ (ix1 r)).trans ?_)
  have h0 : (constant (F := Ideal) S_ .f32 0x00000000#32) (Shape.Idx.first hu) = 0 := Ideal.ofBits_zero_f32
  rw [h0, zero_add]
  refine Finset.sum_congr rfl fun k _ => ?_
  exact congrArg w (funext fun ax => Fin.ext (by match ax with | ⟨0, _⟩ => rfl | ⟨1, _⟩ => rfl))

theorem maximumf_ap {s : Shape} (x y : FVec Ideal s .f32) (i : s.Idx) : maximumf x y i = max (x i) (y i) := rfl
theorem subf_ap {s : Shape} (x y : FVec Ideal s .f32) (i : s.Idx) : subf x y i = x i - y i := rfl
theorem addf_ap {s : Shape} (x y : FVec Ideal s .f32) (i : s.Idx) : addf x y i = x i + y i := rfl
theorem hostLog_ap {s : Shape} (x : FVec Ideal s .f32) (i : s.Idx) : Host.log x i = Ideal.log (x i) := rfl
theorem hostExp_ap {s : Shape} (x : FVec Ideal s .f32) (i : s.Idx) : Host.exp x i = Ideal.exp (x i) := rfl

/-- The host's row maximum at row `r` is the row's maximum (the outer maximum with `-∞` changes nothing). -/
theorem hostRowMax_apply (v : Cert.Gcn.FT Ideal S100000x16) (r : Fin 100000) :
    Cert.Gcn.rowMax (F := Ideal) v (ix1 r) = rowMx (fun k => v (ix2 r k)) := by
  have e1 : broadcastInDim Cert.ReferenceIdeal.S100000 ![] Cert.ReferenceIdeal.Gen.bcast_S_S100000 (constant (F := Ideal) Cert.ReferenceIdeal.S_ .f32 0xFF800000#32) (ix1 r) = Ideal.ofBits .f32 0xFF800000#32 := broadcastInDim_apply _ _ _ (ix1 r) ix0 (fun a => a.elim0)
  have e2 := hostReduceMax_apply v Cert.ReferenceIdeal.Gen.reducesTo_S100000x16_S100000_d1 Cert.ReferenceIdeal.Gen.h_S_ r
  unfold Cert.Gcn.rowMax
  rw [maximumf_ap, e2, e1]
  exact max_negInf _

/-- The shifted array at `(r, q)`: the entry minus its row's maximum. -/
theorem hostShifted_apply (v : Cert.Gcn.FT Ideal S100000x16) (r : Fin 100000) (q : Fin 16) :
    Cert.Gcn.shifted (F := Ideal) v (ix2 r q) = v (ix2 r q) - rowMx (fun k => v (ix2 r k)) := by
  unfold Cert.Gcn.shifted Cert.Gcn.shiftBy
  rw [subf_ap, broadcastInDim_apply _ _ _ (ix2 r q) (ix2 r (0 : Fin 1)) (fun a => by match a with | ⟨0, _⟩ => rfl | ⟨1, _⟩ => rfl),
    broadcastInDim_apply _ _ _ (ix2 r (0 : Fin 1)) (ix1 r) (fun a => by match a with | ⟨0, _⟩ => rfl), hostRowMax_apply]

/-- The host's `log_softmax` at `(r, q)` is the row's. -/
theorem hostLsm_apply (v : Cert.Gcn.FT Ideal S100000x16) (r : Fin 100000) (q : Fin 16) :
    Cert.Gcn.logSoftmax (F := Ideal) v (ix2 r q) = rowLsm (fun k => v (ix2 r k)) q := by
  unfold Cert.Gcn.logSoftmax Cert.Gcn.lsmOf
  rw [subf_ap, broadcastInDim_apply _ _ _ (ix2 r q) (ix2 r (0 : Fin 1)) (fun a => by match a with | ⟨0, _⟩ => rfl | ⟨1, _⟩ => rfl),
    hostLog_ap, broadcastInDim_apply _ _ _ (ix2 r (0 : Fin 1)) (ix1 r) (fun a => by match a with | ⟨0, _⟩ => rfl), hostReduceAdd_row,
    hostShifted_apply]
  unfold rowLsm
  refine congrArg (fun s => (v (ix2 r q) - rowMx (fun k => v (ix2 r k))) - Ideal.log s) (Finset.sum_congr rfl fun k _ => ?_)
  rw [hostExp_ap, hostShifted_apply]

/-- The host's `log_softmax` of the biased array, index by index. -/
theorem lsm_eq (a : Cert.Gcn.FT Ideal S100000x16) (b : Cert.Gcn.FT Ideal S1x16) :
    Cert.Gcn.logSoftmax (F := Ideal) (Cert.Gcn.addBias16 (F := Ideal) a b)
      = fun i => rowLsm (fun k => a (ix2 (⟨(i 0).val, idx2_lt0 i⟩ : Fin 100000) k) + b (ix2 (0 : Fin 1) k)) (⟨(i 1).val, idx2_lt1 i⟩ : Fin 16) := by
  funext i
  obtain ⟨r, q, rfl⟩ : ∃ (r : Fin 100000) (q : Fin 16), i = ix2 r q := ⟨i 0, i 1, eq_ix2 i⟩
  rw [hostLsm_apply]
  refine congrArg (fun u => rowLsm u q) (funext fun k => ?_)
  unfold Cert.Gcn.addBias16
  rw [addf_ap, broadcastInDim_apply _ _ b (ix2 r k) (ix2 (0 : Fin 1) k) (fun ax => by match ax with | ⟨0, _⟩ => rfl | ⟨1, _⟩ => rfl)]

/-! ## The region -/

section Region
variable (V : (c : Dev nD) → (b : Ref sig .tc) → Buf (Elt Ideal) ((c : Thread nD τ).loc b))

/-- The second aggregate as the region finds it, as a function into the extended reals. -/
abbrev aggArr (c : Dev nD) : S100000x16.Idx → EReal := V c (Pipeline.arrRef spec3 0)
/-- The bias row as the region finds it, as a function into the extended reals. -/
abbrev biasArr (c : Dev nD) : S1x16.Idx → EReal := V c (Pipeline.arrRef spec3 1)

/-- The printed index maps over the grid: the aggregate's and the result's blocks are block `t` of the rows, the bias
    row is always block 0. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the host's `log_softmax` of the biased array. -/
theorem flushed_lsm (c : Dev nD) (t : Fin cfg3.N) :
    (dat3 V c).flushed 2 t = ((cfg3.win 2).blk t).view.read (Elt Ideal)
      (Cert.Gcn.logSoftmax (F := Ideal) (Cert.Gcn.addBias16 (F := Ideal) (V c (Pipeline.arrRef spec3 0)) (V c (Pipeline.arrRef spec3 1)))) := by
  show (cfg3.win 2).cut (grid3.coords t) ((dat3 V c).after 2 t) = _
  rw [after3_2]
  unfold out3_2
  rw [View.canon_unit_zero zero2]
  simp only [View.ld_unit_zero (S := S10000x16) zero2, View.ld_unit_zero (S := S1x16) zero2]
  rw [lsm_payload, lsm_eq]
  obtain ⟨e0, e1, e2, e3, e4, e5⟩ := idx3 t
  funext j
  show rowLsm (fun k => aggArr V c (((cfg3.win 0).blk t).view.emb (ix2 (⟨(j 0).val, _⟩ : Fin 10000) k)) + biasArr V c (((cfg3.win 1).blk t).view.emb (ix2 (0 : Fin 1) k))) (⟨(j 1).val, _⟩ : Fin 16)
     = rowLsm (fun k => aggArr V c (ix2 (⟨((((cfg3.win 2).blk t).view.emb j) 0).val, _⟩ : Fin 100000) k) + biasArr V c (ix2 (0 : Fin 1) k)) (⟨((((cfg3.win 2).blk t).view.emb j) 1).val, _⟩ : Fin 16)
  refine congrArg₂ rowLsm (funext fun k => ?_) (Fin.ext ?_)
  · refine congrArg₂ (· + ·) (congrArg (aggArr V c) (funext fun a => Fin.ext ?_)) (congrArg (biasArr V c) (funext fun a => Fin.ext ?_))
    · match a with
      | ⟨0, _⟩ => show win3_0.index t (0 : Fin 2) * 10000 + 1 * (j 0).val = win3_2.index t (0 : Fin 2) * 10000 + 1 * (j 0).val; omega
      | ⟨1, _⟩ => show win3_0.index t (1 : Fin 2) * 16 + 1 * k.val = k.val; omega
    · match a with
      | ⟨0, _⟩ => show win3_1.index t (0 : Fin 2) * 1 + 1 * 0 = 0; omega
      | ⟨1, _⟩ => show win3_1.index t (1 : Fin 2) * 16 + 1 * k.val = k.val; omega
  · show (j 1).val = win3_2.index t (1 : Fin 2) * 16 + 1 * (j 1).val
    omega

/-- An index of the array is in point `t`'s block iff each coordinate is in the block's range on its axis. -/
theorem mem_blk_lsm (t : Fin cfg3.N) (i : S100000x16.Idx) :
    i ∈ ((cfg3.win 2).blk t).view.set ↔ ∀ a : Fin 2, win3_2.index t a * S10000x16.size a ≤ (i a).val ∧ (i a).val < win3_2.index t a * S10000x16.size a + S10000x16.size a := by
  show i ∈ ((View.whole main_v60).slice (win3_2.rect t)).set ↔ _
  rw [View.set_slice_whole, Rect.mem_set_unit]
  exact Iff.rfl

/-- Row `r` lies in the block of point `r / 10000`. -/
theorem cover_lsm (i : S100000x16.Idx) : ∃ t : Fin cfg3.N, (cfg3.win 2).flush t = true ∧ i ∈ ((cfg3.win 2).blk t).view.set := by
  have hi0 : (i 0).val < 100000 := idx2_lt0 i
  have hi1 : (i 1).val < 16 := idx2_lt1 i
  obtain ⟨t, ht⟩ : ∃ t : Fin cfg3.N, t.val = (i 0).val / 10000 := ⟨⟨(i 0).val / 10000, by show _ < grid3.N; rw [N_3]; omega⟩, rfl⟩
  obtain ⟨e0, e1, e2, e3, e4, e5⟩ := idx3 t
  refine ⟨t, flush3_2 t, ?_⟩
  rw [mem_blk_lsm]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 16 ≤ (i 1).val ∧ (i 1).val < win3_2.index t (1 : Fin 2) * 16 + 16; omega

/-- The region's result array ends at the host's `log_softmax` of the aggregate plus the bias row. -/
theorem final_lsm (c : Dev nD) : (dat3 V c).arrAt 2 cfg3.N
    = Cert.Gcn.logSoftmax (F := Ideal) (Cert.Gcn.addBias16 (F := Ideal) (V c (Pipeline.arrRef spec3 0)) (V c (Pipeline.arrRef spec3 1))) :=
  (dat3 V c).arrAt_eq_of_cover 2 _ (fun t _ => flushed_lsm V c t) cover_lsm

end Region

end Cert.KernelIdeal.KValue

end
-- ==== Proof.Fold.lean ====
/-
  The kernel program's result as a function of its arguments.  The run's fold through @main gives every buffer's
  contents at each segment boundary (`W0` at launch … `W9` at the return); here each boundary is read at the buffers
  still needed later.  A host stretch applies its operations to the previous boundary's contents — they are the
  reference's own operations: edge sources and targets with the self-loops, the degree normalisation, gather · scale ·
  scatter-add —; a region leaves in its result array the dense stage proved in its own module (the two products, bias +
  relu, bias + log-softmax) and every other buffer as it found it.  Composed, the result buffer ends at `Cert.Gcn.out`
  of the six arguments.
-/
import proofs.«127576_j27934467293291_1_alg».proof.Proof.Lin1
import proofs.«127576_j27934467293291_1_alg».proof.Proof.Lin2
import proofs.«127576_j27934467293291_1_alg».proof.Proof.Relu
import proofs.«127576_j27934467293291_1_alg».proof.Proof.LogSoftmax
import Idealize.ShloMosaic.Lib.StableHlo.Run

set_option maxRecDepth 65536
set_option maxHeartbeats 4000000

noncomputable section

namespace Cert.KernelIdeal.KFold

open Cert.KernelIdeal Cert.KernelIdeal.Gen Cert.KernelIdeal.KValue
open Idealize.ShloMosaic Idealize.ShloMosaic.TcCoe Idealize.ShloMosaic.StableHlo Idealize.SL.Sem Idealize.ShloMosaic.ValueIdx

section HostPrefix

variable {F : FTy → Type} [FloatOps F]
variable (m : (ℓ : Loc nD τ sig) → Buf (Elt F) ℓ) (ρ : Dev nD → PrngReg)

/-! ## A bias vector recast as a one-row table is the vector broadcast along a new leading axis -/

theorem reshape_row64 (b : Cert.Gcn.FT F S64) (h : S64.ShapeCasts S1x64) :
    shapeCast S1x64 b h = Cert.Gcn.row64 (F := F) b := by
  funext i
  obtain ⟨u, q, rfl⟩ : ∃ (u : Fin 1) (q : Fin 64), i = ix2 u q := ⟨i 0, i 1, eq_ix2 i⟩
  unfold Cert.Gcn.row64
  rw [shapeCast_a_1a_apply, broadcastInDim_apply _ _ b (ix2 u q) (ix1 q) (fun a => by match a with | ⟨0, _⟩ => rfl)]

theorem reshape_row16 (b : Cert.Gcn.FT F S16) (h : S16.ShapeCasts S1x16) :
    shapeCast S1x16 b h = Cert.Gcn.row16 (F := F) b := by
  funext i
  obtain ⟨u, q, rfl⟩ : ∃ (u : Fin 1) (q : Fin 16), i = ix2 u q := ⟨i 0, i 1, eq_ix2 i⟩
  unfold Cert.Gcn.row16
  rw [shapeCast_a_1a_apply, broadcastInDim_apply _ _ b (ix2 u q) (ix1 q) (fun a => by match a with | ⟨0, _⟩ => rfl)]

/-! ## Region 0's entry: the graph's structure, computed once -/

theorem W3_src (c : Dev nD) : W3 m ρ c (Proc.devRef .tc main_v5) = Cert.Gcn.src (F := F) (m ((c : Thread nD τ).loc main_arg1)) := by
  show after hostOps0_2 (after hostOps0_1 (after hostOps0 (W0 m ρ c))) (Proc.devRef .tc main_v5) = _
  after_results
  rfl
theorem W3_dst (c : Dev nD) : W3 m ρ c (Proc.devRef .tc main_v6) = Cert.Gcn.dst (F := F) (m ((c : Thread nD τ).loc main_arg1)) := by
  show after hostOps0_2 (after hostOps0_1 (after hostOps0 (W0 m ρ c))) (Proc.devRef .tc main_v6) = _
  after_results
  rfl
theorem W1_cmp (c : Dev nD) : W1 m ρ c (Proc.devRef .tc main_v12)
    = cmpf .ogt (Cert.Gcn.deg (F := F) (m ((c : Thread nD τ).loc main_arg1))) (broadcastInDim S100000 ![] bcast_S_S100000 (constant (F := F) S_ .f32 0x00000000#32)) := by
  show after hostOps0 (W0 m ρ c) (Proc.devRef .tc main_v12) = _
  after_results
  rfl
theorem W1_rsqrt (c : Dev nD) : W1 m ρ c (Proc.devRef .tc main_v13) = Host.rsqrt (F := F) (φ := .f32) (Cert.Gcn.deg (F := F) (m ((c : Thread nD τ).loc main_arg1))) := by
  show after hostOps0 (W0 m ρ c) (Proc.devRef .tc main_v13) = _
  after_results
  rfl
theorem W1_zero (c : Dev nD) : W1 m ρ c (Proc.devRef .tc main_cst_2) = (constant (F := F) S_ .f32 0x00000000#32 : Cert.Gcn.FT F S_) := by
  show after hostOps0 (W0 m ρ c) (Proc.devRef .tc main_cst_2) = _
  after_results
theorem W2_dinv (c : Dev nD) : W2 m ρ c (Proc.devRef .tc main_v14) = Cert.Gcn.dinv (F := F) (m ((c : Thread nD τ).loc main_arg1)) := by
  have h12 := W1_cmp m ρ c
  have h13 := W1_rsqrt m ρ c
  have hc := W1_zero m ρ c
  show after hostOps0_1 (W1 m ρ c) (Proc.devRef .tc main_v14) = _
  generalize W1 m ρ c = Y at h12 h13 hc ⊢
  after_results
  rw [h12, h13, hc]
  rfl
theorem W2_src (c : Dev nD) : W2 m ρ c (Proc.devRef .tc main_v5) = Cert.Gcn.src (F := F) (m ((c : Thread nD τ).loc main_arg1)) := by
  show after hostOps0_1 (after hostOps0 (W0 m ρ c)) (Proc.devRef .tc main_v5) = _
  after_results
  rfl
theorem W2_dst (c : Dev nD) : W2 m ρ c (Proc.devRef .tc main_v6) = Cert.Gcn.dst (F := F) (m ((c : Thread nD τ).loc main_arg1)) := by
  show after hostOps0_1 (after hostOps0 (W0 m ρ c)) (Proc.devRef .tc main_v6) = _
  after_results
  rfl
theorem W3_norm (c : Dev nD) : W3 m ρ c (Proc.devRef .tc main_v30) = Cert.Gcn.normCol (F := F) (m ((c : Thread nD τ).loc main_arg1)) := by
  have hv := W2_dinv m ρ c
  have hs := W2_src m ρ c
  have hd := W2_dst m ρ c
  show after hostOps0_2 (W2 m ρ c) (Proc.devRef .tc main_v30) = _
  generalize W2 m ρ c = Y at hv hs hd ⊢
  after_results
  rw [hv, hs, hd]
  rfl
theorem W3_arg0 (c : Dev nD) : W3 m ρ c (Proc.devRef .tc main_arg0) = (m ((c : Thread nD τ).loc main_arg0)) := by
  show after hostOps0_2 (after hostOps0_1 (after hostOps0 (W0 m ρ c))) (Proc.devRef .tc main_arg0) = _
  after_results
theorem W3_arg2 (c : Dev nD) : W3 m ρ c (Proc.devRef .tc main_arg2) = (m ((c : Thread nD τ).loc main_arg2)) := by
  show after hostOps0_2 (after hostOps0_1 (after hostOps0 (W0 m ρ c))) (Proc.devRef .tc main_arg2) = _
  after_results
theorem W3_arg3 (c : Dev nD) : W3 m ρ c (Proc.devRef .tc main_arg3) = (m ((c : Thread nD τ).loc main_arg3)) := by
  show after hostOps0_2 (after hostOps0_1 (after hostOps0 (W0 m ρ c))) (Proc.devRef .tc main_arg3) = _
  after_results
theorem W3_arg4 (c : Dev nD) : W3 m ρ c (Proc.devRef .tc main_arg4) = (m ((c : Thread nD τ).loc main_arg4)) := by
  show after hostOps0_2 (after hostOps0_1 (after hostOps0 (W0 m ρ c))) (Proc.devRef .tc main_arg4) = _
  after_results
theorem W3_arg5 (c : Dev nD) : W3 m ρ c (Proc.devRef .tc main_arg5) = (m ((c : Thread nD τ).loc main_arg5)) := by
  show after hostOps0_2 (after hostOps0_1 (after hostOps0 (W0 m ρ c))) (Proc.devRef .tc main_arg5) = _
  after_results

end HostPrefix

variable (m : (ℓ : Loc nD τ sig) → Buf (Elt Ideal) ℓ) (ρ : Dev nD → PrngReg)

/-! ## Region 0's exit: `x · W1` -/

theorem W4_h (c : Dev nD) : W4 m ρ c (Proc.devRef .tc main_v31) = Cert.Gcn.lin1 (F := Ideal) (m ((c : Thread nD τ).loc main_arg0)) (m ((c : Thread nD τ).loc main_arg2)) := by
  refine (W4_arr m ρ c 2).trans ((final_lin1 (V3 m ρ) c).trans ?_)
  show Cert.Gcn.lin1 (F := Ideal) (W3 m ρ c (Proc.devRef .tc main_arg0)) (W3 m ρ c (Proc.devRef .tc main_arg2)) = _
  rw [W3_arg0, W3_arg2]
theorem W4_src (c : Dev nD) : W4 m ρ c (Proc.devRef .tc main_v5) = Cert.Gcn.src (F := Ideal) (m ((c : Thread nD τ).loc main_arg1)) :=
  (W4_of_ne m ρ c main_v5 (by decide)).trans (W3_src m ρ c)
theorem W4_dst (c : Dev nD) : W4 m ρ c (Proc.devRef .tc main_v6) = Cert.Gcn.dst (F := Ideal) (m ((c : Thread nD τ).loc main_arg1)) :=
  (W4_of_ne m ρ c main_v6 (by decide)).trans (W3_dst m ρ c)
theorem W4_norm (c : Dev nD) : W4 m ρ c (Proc.devRef .tc main_v30) = Cert.Gcn.normCol (F := Ideal) (m ((c : Thread nD τ).loc main_arg1)) :=
  (W4_of_ne m ρ c main_v30 (by decide)).trans (W3_norm m ρ c)
theorem W4_arg3 (c : Dev nD) : W4 m ρ c (Proc.devRef .tc main_arg3) = (m ((c : Thread nD τ).loc main_arg3)) :=
  (W4_of_ne m ρ c main_arg3 (by decide)).trans (W3_arg3 m ρ c)
theorem W4_arg4 (c : Dev nD) : W4 m ρ c (Proc.devRef .tc main_arg4) = (m ((c : Thread nD τ).loc main_arg4)) :=
  (W4_of_ne m ρ c main_arg4 (by decide)).trans (W3_arg4 m ρ c)
theorem W4_arg5 (c : Dev nD) : W4 m ρ c (Proc.devRef .tc main_arg5) = (m ((c : Thread nD τ).loc main_arg5)) :=
  (W4_of_ne m ρ c main_arg5 (by decide)).trans (W3_arg5 m ρ c)

/-! ## Region 1's entry: the first propagation step and the bias row -/

theorem W5_agg (c : Dev nD) : W5 m ρ c (Proc.devRef .tc main_v43)
    = Cert.Gcn.agg64 (F := Ideal) (m ((c : Thread nD τ).loc main_arg1)) (Cert.Gcn.lin1 (F := Ideal) (m ((c : Thread nD τ).loc main_arg0)) (m ((c : Thread nD τ).loc main_arg2))) := by
  show after hostOps1 (W4 m ρ c) (Proc.devRef .tc main_v43) = _
  after_results
  rw [W4_h, W4_src, W4_dst, W4_norm]
  rfl
theorem W5_bias (c : Dev nD) : W5 m ρ c (Proc.devRef .tc main_v44) = Cert.Gcn.row64 (F := Ideal) (m ((c : Thread nD τ).loc main_arg3)) := by
  show after hostOps1 (W4 m ρ c) (Proc.devRef .tc main_v44) = _
  after_results
  rw [W4_arg3]
  exact reshape_row64 _ _
theorem W5_src (c : Dev nD) : W5 m ρ c (Proc.devRef .tc main_v5) = Cert.Gcn.src (F := Ideal) (m ((c : Thread nD τ).loc main_arg1)) := by
  show after hostOps1 (W4 m ρ c) (Proc.devRef .tc main_v5) = _
  after_results
  exact W4_src m ρ c
theorem W5_dst (c : Dev nD) : W5 m ρ c (Proc.devRef .tc main_v6) = Cert.Gcn.dst (F := Ideal) (m ((c : Thread nD τ).loc main_arg1)) := by
  show after hostOps1 (W4 m ρ c) (Proc.devRef .tc main_v6) = _
  after_results
  exact W4_dst m ρ c
theorem W5_norm (c : Dev nD) : W5 m ρ c (Proc.devRef .tc main_v30) = Cert.Gcn.normCol (F := Ideal) (m ((c : Thread nD τ).loc main_arg1)) := by
  show after hostOps1 (W4 m ρ c) (Proc.devRef .tc main_v30) = _
  after_results
  exact W4_norm m ρ c
theorem W5_arg4 (c : Dev nD) : W5 m ρ c (Proc.devRef .tc main_arg4) = (m ((c : Thread nD τ).loc main_arg4)) := by
  show after hostOps1 (W4 m ρ c) (Proc.devRef .tc main_arg4) = _
  after_results
  exact W4_arg4 m ρ c
theorem W5_arg5 (c : Dev nD) : W5 m ρ c (Proc.devRef .tc main_arg5) = (m ((c : Thread nD τ).loc main_arg5)) := by
  show after hostOps1 (W4 m ρ c) (Proc.devRef .tc main_arg5) = _
  after_results
  exact W4_arg5 m ρ c

/-! ## Region 1's exit: the hidden layer; region 2's exit: `hidden · W2` -/

theorem W6_hidden (c : Dev nD) : W6 m ρ c (Proc.devRef .tc main_v45)
    = Cert.Gcn.hidden (F := Ideal) (m ((c : Thread nD τ).loc main_arg0)) (m ((c : Thread nD τ).loc main_arg1)) (m ((c : Thread nD τ).loc main_arg2)) (m ((c : Thread nD τ).loc main_arg3)) := by
  refine (W6_arr m ρ c 2).trans ((final_relu (V5 m ρ) c).trans ?_)
  show Cert.Gcn.biasRelu (F := Ideal) (W5 m ρ c (Proc.devRef .tc main_v43)) (W5 m ρ c (Proc.devRef .tc main_v44)) = _
  rw [W5_agg, W5_bias]
  rfl
theorem W6_src (c : Dev nD) : W6 m ρ c (Proc.devRef .tc main_v5) = Cert.Gcn.src (F := Ideal) (m ((c : Thread nD τ).loc main_arg1)) :=
  (W6_of_ne m ρ c main_v5 (by decide)).trans (W5_src m ρ c)
theorem W6_dst (c : Dev nD) : W6 m ρ c (Proc.devRef .tc main_v6) = Cert.Gcn.dst (F := Ideal) (m ((c : Thread nD τ).loc main_arg1)) :=
  (W6_of_ne m ρ c main_v6 (by decide)).trans (W5_dst m ρ c)
theorem W6_norm (c : Dev nD) : W6 m ρ c (Proc.devRef .tc main_v30) = Cert.Gcn.normCol (F := Ideal) (m ((c : Thread nD τ).loc main_arg1)) :=
  (W6_of_ne m ρ c main_v30 (by decide)).trans (W5_norm m ρ c)
theorem W6_arg4 (c : Dev nD) : W6 m ρ c (Proc.devRef .tc main_arg4) = (m ((c : Thread nD τ).loc main_arg4)) :=
  (W6_of_ne m ρ c main_arg4 (by decide)).trans (W5_arg4 m ρ c)
theorem W6_arg5 (c : Dev nD) : W6 m ρ c (Proc.devRef .tc main_arg5) = (m ((c : Thread nD τ).loc main_arg5)) :=
  (W6_of_ne m ρ c main_arg5 (by decide)).trans (W5_arg5 m ρ c)

theorem W7_h2 (c : Dev nD) : W7 m ρ c (Proc.devRef .tc main_v46)
    = Cert.Gcn.lin2 (F := Ideal) (Cert.Gcn.hidden (F := Ideal) (m ((c : Thread nD τ).loc main_arg0)) (m ((c : Thread nD τ).loc main_arg1)) (m ((c : Thread nD τ).loc main_arg2)) (m ((c : Thread nD τ).loc main_arg3))) (m ((c : Thread nD τ).loc main_arg4)) := by
  refine (W7_arr m ρ c 2).trans ((final_lin2 (V6 m ρ) c).trans ?_)
  show Cert.Gcn.lin2 (F := Ideal) (W6 m ρ c (Proc.devRef .tc main_v45)) (W6 m ρ c (Proc.devRef .tc main_arg4)) = _
  rw [W6_hidden, W6_arg4]
theorem W7_src (c : Dev nD) : W7 m ρ c (Proc.devRef .tc main_v5) = Cert.Gcn.src (F := Ideal) (m ((c : Thread nD τ).loc main_arg1)) :=
  (W7_of_ne m ρ c main_v5 (by decide)).trans (W6_src m ρ c)
theorem W7_dst (c : Dev nD) : W7 m ρ c (Proc.devRef .tc main_v6) = Cert.Gcn.dst (F := Ideal) (m ((c : Thread nD τ).loc main_arg1)) :=
  (W7_of_ne m ρ c main_v6 (by decide)).trans (W6_dst m ρ c)
theorem W7_norm (c : Dev nD) : W7 m ρ c (Proc.devRef .tc main_v30) = Cert.Gcn.normCol (F := Ideal) (m ((c : Thread nD τ).loc main_arg1)) :=
  (W7_of_ne m ρ c main_v30 (by decide)).trans (W6_norm m ρ c)
theorem W7_arg5 (c : Dev nD) : W7 m ρ c (Proc.devRef .tc main_arg5) = (m ((c : Thread nD τ).loc main_arg5)) :=
  (W7_of_ne m ρ c main_arg5 (by decide)).trans (W6_arg5 m ρ c)

/-! ## Region 3's entry: the second propagation step and the bias row; its exit: the result -/

theorem W8_agg (c : Dev nD) : W8 m ρ c (Proc.devRef .tc main_v58)
    = Cert.Gcn.agg16 (F := Ideal) (m ((c : Thread nD τ).loc main_arg1)) (Cert.Gcn.lin2 (F := Ideal) (Cert.Gcn.hidden (F := Ideal) (m ((c : Thread nD τ).loc main_arg0)) (m ((c : Thread nD τ).loc main_arg1)) (m ((c : Thread nD τ).loc main_arg2)) (m ((c : Thread nD τ).loc main_arg3))) (m ((c : Thread nD τ).loc main_arg4))) := by
  show after hostOps3 (W7 m ρ c) (Proc.devRef .tc main_v58) = _
  after_results
  rw [W7_h2, W7_src, W7_dst, W7_norm]
  rfl
theorem W8_bias (c : Dev nD) : W8 m ρ c (Proc.devRef .tc main_v59) = Cert.Gcn.row16 (F := Ideal) (m ((c : Thread nD τ).loc main_arg5)) := by
  show after hostOps3 (W7 m ρ c) (Proc.devRef .tc main_v59) = _
  after_results
  rw [W7_arg5]
  exact reshape_row16 _ _

/-- The result buffer at the return is the two-layer graph convolution of the arguments. -/
theorem W9_out (c : Dev nD) : W9 m ρ c (Proc.devRef .tc main_v60)
    = Cert.Gcn.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((final_lsm (V8 m ρ) c).trans ?_)
  show Cert.Gcn.logSoftmax (F := Ideal) (Cert.Gcn.addBias16 (F := Ideal) (W8 m ρ c (Proc.devRef .tc main_v58)) (W8 m ρ c (Proc.devRef .tc main_v59))) = _
  rw [W8_agg, W8_bias]
  rfl

end Cert.KernelIdeal.KFold

end
-- ==== Proof.RefRun.lean ====
/-
  The reference program's run, read back stage by stage.  @main is a straight line of 140 host operations, so every
  weakly fair execution terminates with each buffer at the fold of the operations' results over the launch contents.
  The fold is cut where the mathematics cuts it — sources and targets of the edges with the self-loops (operations 1–8),
  `x · W1` (9), degrees (10–15), their inverse square roots (16–23), the edges' normalisation (24–42), gather · scale ·
  scatter-add (43–58), bias and relu (59–64), and the same seven stages again for the second layer, ending in the bias
  and `log_softmax` (123–140) — and each cut is read from the contents at the previous one: the operations of a stage
  ARE the corresponding function of `Cert.Gcn`.  No operation writes an argument, so the arguments stay as launched.
-/
import proofs.«127576_j27934467293291_1_alg».proof.Proof.RunP
import proofs.«127576_j27934467293291_1_alg».proof.Proof.Spec

set_option maxRecDepth 65536
set_option maxHeartbeats 4000000

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation is the fold over the second list from the fold over the first. -/
theorem after_append (A B : List (HloOp τ sig (Elt F))) (V : Valuation τ sig (Elt F)) : after (A ++ B) V = after B (after A V) := by
  induction A generalizing V with
  | nil => rfl
  | cons op A ih => exact ih _

variable (m : (ℓ : Loc nD τ sig) → Buf (Elt F) ℓ)

/-- The buffers' contents after the first `k` operations of @main. -/
def X (c : Dev nD) (k : Nat) : Valuation τ sig (Elt F) := after ((ValueP.ops (F := F)).take k) (launchContents m c)

/-- The contents after `a + d` operations are the next `d` operations' fold over the contents after `a`. -/
theorem X_step (c : Dev nD) (k a d : Nat) (h : k = a + d) : X m c k = after (((ValueP.ops (F := F)).drop a).take d) (X m c a) := by
  subst h
  unfold X
  rw [List.take_add, after_append]

/-! ### No operation writes an argument -/

theorem X_arg0 (c : Dev nD) (k : Nat) : X m c k (Proc.devRef .tc main_arg0) = (m ((c.tc : Thread nD τ).loc main_arg0)) :=
  (after_of_forall_not_mem (b := Proc.devRef .tc main_arg0) _ _ (fun op h => (List.forall_iff_forall_mem.mp (by
    simp only [ValueP.ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) : ∀ op ∈ (ValueP.ops (F := F)), Proc.devRef .tc main_arg0 ∉ op.writes) op (List.mem_of_mem_take h))).trans rfl
theorem X_arg1 (c : Dev nD) (k : Nat) : X m c k (Proc.devRef .tc main_arg1) = (m ((c.tc : Thread nD τ).loc main_arg1)) :=
  (after_of_forall_not_mem (b := Proc.devRef .tc main_arg1) _ _ (fun op h => (List.forall_iff_forall_mem.mp (by
    simp only [ValueP.ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) : ∀ op ∈ (ValueP.ops (F := F)), Proc.devRef .tc main_arg1 ∉ op.writes) op (List.mem_of_mem_take h))).trans rfl
theorem X_arg2 (c : Dev nD) (k : Nat) : X m c k (Proc.devRef .tc main_arg2) = (m ((c.tc : Thread nD τ).loc main_arg2)) :=
  (after_of_forall_not_mem (b := Proc.devRef .tc main_arg2) _ _ (fun op h => (List.forall_iff_forall_mem.mp (by
    simp only [ValueP.ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) : ∀ op ∈ (ValueP.ops (F := F)), Proc.devRef .tc main_arg2 ∉ op.writes) op (List.mem_of_mem_take h))).trans rfl
theorem X_arg3 (c : Dev nD) (k : Nat) : X m c k (Proc.devRef .tc main_arg3) = (m ((c.tc : Thread nD τ).loc main_arg3)) :=
  (after_of_forall_not_mem (b := Proc.devRef .tc main_arg3) _ _ (fun op h => (List.forall_iff_forall_mem.mp (by
    simp only [ValueP.ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) : ∀ op ∈ (ValueP.ops (F := F)), Proc.devRef .tc main_arg3 ∉ op.writes) op (List.mem_of_mem_take h))).trans rfl
theorem X_arg4 (c : Dev nD) (k : Nat) : X m c k (Proc.devRef .tc main_arg4) = (m ((c.tc : Thread nD τ).loc main_arg4)) :=
  (after_of_forall_not_mem (b := Proc.devRef .tc main_arg4) _ _ (fun op h => (List.forall_iff_forall_mem.mp (by
    simp only [ValueP.ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) : ∀ op ∈ (ValueP.ops (F := F)), Proc.devRef .tc main_arg4 ∉ op.writes) op (List.mem_of_mem_take h))).trans rfl
theorem X_arg5 (c : Dev nD) (k : Nat) : X m c k (Proc.devRef .tc main_arg5) = (m ((c.tc : Thread nD τ).loc main_arg5)) :=
  (after_of_forall_not_mem (b := Proc.devRef .tc main_arg5) _ _ (fun op h => (List.forall_iff_forall_mem.mp (by
    simp only [ValueP.ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)) : ∀ op ∈ (ValueP.ops (F := F)), Proc.devRef .tc main_arg5 ∉ op.writes) op (List.mem_of_mem_take h))).trans rfl

/-! ## The stages -/

/-! ### Operations 1 … 8 -/

/-- After operation 8: the edges' sources. -/
theorem X8_src (c : Dev nD) : X m c 8 (Proc.devRef .tc main_v3) = Cert.Gcn.src (F := F) (m ((c.tc : Thread nD τ).loc main_arg1)) := by
  rw [X_step m c 8 0 8 rfl]
  simp only [ValueP.ops, List.drop_zero, List.drop_succ_cons, List.take_succ_cons, List.take_zero]
  after_results
  rfl
/-- After operation 8: the edges' targets. -/
theorem X8_dst (c : Dev nD) : X m c 8 (Proc.devRef .tc main_v7) = Cert.Gcn.dst (F := F) (m ((c.tc : Thread nD τ).loc main_arg1)) := by
  rw [X_step m c 8 0 8 rfl]
  simp only [ValueP.ops, List.drop_zero, List.drop_succ_cons, List.take_succ_cons, List.take_zero]
  after_results
  rfl

/-! ### Operations 9 … 9 -/

/-- After operation 9: `x · W1`. -/
theorem X9_h (c : Dev nD) : X m c 9 (Proc.devRef .tc main_v8) = Cert.Gcn.lin1 (F := F) (m ((c.tc : Thread nD τ).loc main_arg0)) (m ((c.tc : Thread nD τ).loc main_arg2)) := by
  rw [X_step m c 9 8 1 rfl]
  simp only [ValueP.ops, List.drop_zero, List.drop_succ_cons, List.take_succ_cons, List.take_zero]
  after_results
  rw [X_arg0 m c 8, X_arg2 m c 8]
  rfl
theorem X9_src (c : Dev nD) : X m c 9 (Proc.devRef .tc main_v3) = Cert.Gcn.src (F := F) (m ((c.tc : Thread nD τ).loc main_arg1)) := by
  rw [X_step m c 9 8 1 rfl]
  simp only [ValueP.ops, List.drop_zero, List.drop_succ_cons, List.take_succ_cons, List.take_zero]
  after_results
  exact X8_src m c
theorem X9_dst (c : Dev nD) : X m c 9 (Proc.devRef .tc main_v7) = Cert.Gcn.dst (F := F) (m ((c.tc : Thread nD τ).loc main_arg1)) := by
  rw [X_step m c 9 8 1 rfl]
  simp only [ValueP.ops, List.drop_zero, List.drop_succ_cons, List.take_succ_cons, List.take_zero]
  after_results
  exact X8_dst m c

/-! ### Operations 10 … 15 -/

/-- After operation 15: the degrees. -/
theorem X15_deg (c : Dev nD) : X m c 15 (Proc.devRef .tc main_v12) = Cert.Gcn.deg (F := F) (m ((c.tc : Thread nD τ).loc main_arg1)) := by
  rw [X_step m c 15 9 6 rfl]
  simp only [ValueP.ops, List.drop_zero, List.drop_succ_cons, List.take_succ_cons, List.take_zero]
  after_results
  rw [X9_dst m c]
  rfl
theorem X15_src (c : Dev nD) : X m c 15 (Proc.devRef .tc main_v3) = Cert.Gcn.src (F := F) (m ((c.tc : Thread nD τ).loc main_arg1)) := by
  rw [X_step m c 15 9 6 rfl]
  simp only [ValueP.ops, List.drop_zero, List.drop_succ_cons, List.take_succ_cons, List.take_zero]
  after_results
  exact X9_src m c
theorem X15_dst (c : Dev nD) : X m c 15 (Proc.devRef .tc main_v7) = Cert.Gcn.dst (F := F) (m ((c.tc : Thread nD τ).loc main_arg1)) := by
  rw [X_step m c 15 9 6 rfl]
  simp only [ValueP.ops, List.drop_zero, List.drop_succ_cons, List.take_succ_cons, List.take_zero]
  after_results
  exact X9_dst m c
theorem X15_h (c : Dev nD) : X m c 15 (Proc.devRef .tc main_v8) = Cert.Gcn.lin1 (F := F) (m ((c.tc : Thread nD τ).loc main_arg0)) (m ((c.tc : Thread nD τ).loc main_arg2)) := by
  rw [X_step m c 15 9 6 rfl]
  simp only [ValueP.ops, List.drop_zero, List.drop_succ_cons, List.take_succ_cons, List.take_zero]
  after_results
  exact X9_h m c

/-! ### Operations 16 … 23 -/

/-- After operation 23: the inverse square roots of the degrees. -/
theorem X23_dinv (c : Dev nD) : X m c 23 (Proc.devRef .tc main_v16) = Cert.Gcn.dinv (F := F) (m ((c.tc : Thread nD τ).loc main_arg1)) := by
  rw [X_step m c 23 15 8 rfl]
  simp only [ValueP.ops, List.drop_zero, List.drop_succ_cons, List.take_succ_cons, List.take_zero]
  after_results
  rw [X15_deg m c]
  rfl
theorem X23_src (c : Dev nD) : X m c 23 (Proc.devRef .tc main_v3) = Cert.Gcn.src (F := F) (m ((c.tc : Thread nD τ).loc main_arg1)) := by
  rw [X_step m c 23 15 8 rfl]
  simp only [ValueP.ops, List.drop_zero, List.drop_succ_cons, List.take_succ_cons, List.take_zero]
  after_results
  exact X15_src m c
theorem X23_dst (c : Dev nD) : X m c 23 (Proc.devRef .tc main_v7) = Cert.Gcn.dst (F := F) (m ((c.tc : Thread nD τ).loc main_arg1)) := by
  rw [X_step m c 23 15 8 rfl]
  simp only [ValueP.ops, List.drop_zero, List.drop_succ_cons, List.take_succ_cons, List.take_zero]
  after_results
  exact X15_dst m c
theorem X23_h (c : Dev nD) : X m c 23 (Proc.devRef .tc main_v8) = Cert.Gcn.lin1 (F := F) (m ((c.tc : Thread nD τ).loc main_arg0)) (m ((c.tc : Thread nD τ).loc main_arg2)) := by
  rw [X_step m c 23 15 8 rfl]
  simp only [ValueP.ops, List.drop_zero, List.drop_succ_cons, List.take_succ_cons, List.take_zero]
  after_results
  exact X15_h m c

/-! ### Operations 24 … 42 -/

/-- After operation 42: the edges' normalisation. -/
theorem X42_norm (c : Dev nD) : X m c 42 (Proc.devRef .tc main_v31) = Cert.Gcn.norm (F := F) (m ((c.tc : Thread nD τ).loc main_arg1)) := by
  rw [X_step m c 42 23 19 rfl]
  simp only [ValueP.ops, List.drop_zero, List.drop_succ_cons, List.take_succ_cons, List.take_zero]
  after_results
  rw [X23_dinv m c, X23_src m c, X23_dst m c]
  rfl
theorem X42_src (c : Dev nD) : X m c 42 (Proc.devRef .tc main_v3) = Cert.Gcn.src (F := F) (m ((c.tc : Thread nD τ).loc main_arg1)) := by
  rw [X_step m c 42 23 19 rfl]
  simp only [ValueP.ops, List.drop_zero, List.drop_succ_cons, List.take_succ_cons, List.take_zero]
  after_results
  exact X23_src m c
theorem X42_dst (c : Dev nD) : X m c 42 (Proc.devRef .tc main_v7) = Cert.Gcn.dst (F := F) (m ((c.tc : Thread nD τ).loc main_arg1)) := by
  rw [X_step m c 42 23 19 rfl]
  simp only [ValueP.ops, List.drop_zero, List.drop_succ_cons, List.take_succ_cons, List.take_zero]
  after_results
  exact X23_dst m c
theorem X42_h (c : Dev nD) : X m c 42 (Proc.devRef .tc main_v8) = Cert.Gcn.lin1 (F := F) (m ((c.tc : Thread nD τ).loc main_arg0)) (m ((c.tc : Thread nD τ).loc main_arg2)) := by
  rw [X_step m c 42 23 19 rfl]
  simp only [ValueP.ops, List.drop_zero, List.drop_succ_cons, List.take_succ_cons, List.take_zero]
  after_results
  exact X23_h m c

/-! ### Operations 43 … 58 -/

/-- After operation 58: the first propagation step. -/
theorem X58_agg (c : Dev nD) : X m c 58 (Proc.devRef .tc main_v44) = Cert.Gcn.agg64 (F := F) (m ((c.tc : Thread nD τ).loc main_arg1)) (Cert.Gcn.lin1 (F := F) (m ((c.tc : Thread nD τ).loc main_arg0)) (m ((c.tc : Thread nD τ).loc main_arg2))) := by
  rw [X_step m c 58 42 16 rfl]
  simp only [ValueP.ops, List.drop_zero, List.drop_succ_cons, List.take_succ_cons, List.take_zero]
  after_results
  rw [X42_src m c, X42_dst m c, X42_h m c, X42_norm m c]
  rfl

/-! ### Operations 59 … 64 -/

/-- After operation 64: the hidden layer. -/
theorem X64_hidden (c : Dev nD) : X m c 64 (Proc.devRef .tc main_v48) = Cert.Gcn.hidden (F := F) (m ((c.tc : Thread nD τ).loc main_arg0)) (m ((c.tc : Thread nD τ).loc main_arg1)) (m ((c.tc : Thread nD τ).loc main_arg2)) (m ((c.tc : Thread nD τ).loc main_arg3)) := by
  rw [X_step m c 64 58 6 rfl]
  simp only [ValueP.ops, List.drop_zero, List.drop_succ_cons, List.take_succ_cons, List.take_zero]
  after_results
  rw [X58_agg m c, X_arg3 m c 58]
  rfl

/-! ### Operations 65 … 72 -/

/-- After operation 72: the edges' sources. -/
theorem X72_src (c : Dev nD) : X m c 72 (Proc.devRef .tc main_v52) = Cert.Gcn.src (F := F) (m ((c.tc : Thread nD τ).loc main_arg1)) := by
  rw [X_step m c 72 64 8 rfl]
  simp only [ValueP.ops, List.drop_zero, List.drop_succ_cons, List.take_succ_cons, List.take_zero]
  after_results
  rw [X_arg1 m c 64]
  rfl
/-- After operation 72: the edges' targets. -/
theorem X72_dst (c : Dev nD) : X m c 72 (Proc.devRef .tc main_v56) = Cert.Gcn.dst (F := F) (m ((c.tc : Thread nD τ).loc main_arg1)) := by
  rw [X_step m c 72 64 8 rfl]
  simp only [ValueP.ops, List.drop_zero, List.drop_succ_cons, List.take_succ_cons, List.take_zero]
  after_results
  rw [X_arg1 m c 64]
  rfl
theorem X72_hidden (c : Dev nD) : X m c 72 (Proc.devRef .tc main_v48) = Cert.Gcn.hidden (F := F) (m ((c.tc : Thread nD τ).loc main_arg0)) (m ((c.tc : Thread nD τ).loc main_arg1)) (m ((c.tc : Thread nD τ).loc main_arg2)) (m ((c.tc : Thread nD τ).loc main_arg3)) := by
  rw [X_step m c 72 64 8 rfl]
  simp only [ValueP.ops, List.drop_zero, List.drop_succ_cons, List.take_succ_cons, List.take_zero]
  after_results
  exact X64_hidden m c

/-! ### Operations 73 … 73 -/

/-- After operation 73: `hidden · W2`. -/
theorem X73_h2 (c : Dev nD) : X m c 73 (Proc.devRef .tc main_v57) = Cert.Gcn.lin2 (F := F) (Cert.Gcn.hidden (F := F) (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) := by
  rw [X_step m c 73 72 1 rfl]
  simp only [ValueP.ops, List.drop_zero, List.drop_succ_cons, List.take_succ_cons, List.take_zero]
  after_results
  rw [X72_hidden m c, X_arg4 m c 72]
  rfl
theorem X73_src (c : Dev nD) : X m c 73 (Proc.devRef .tc main_v52) = Cert.Gcn.src (F := F) (m ((c.tc : Thread nD τ).loc main_arg1)) := by
  rw [X_step m c 73 72 1 rfl]
  simp only [ValueP.ops, List.drop_zero, List.drop_succ_cons, List.take_succ_cons, List.take_zero]
  after_results
  exact X72_src m c
theorem X73_dst (c : Dev nD) : X m c 73 (Proc.devRef .tc main_v56) = Cert.Gcn.dst (F := F) (m ((c.tc : Thread nD τ).loc main_arg1)) := by
  rw [X_step m c 73 72 1 rfl]
  simp only [ValueP.ops, List.drop_zero, List.drop_succ_cons, List.take_succ_cons, List.take_zero]
  after_results
  exact X72_dst m c

/-! ### Operations 74 … 79 -/

/-- After operation 79: the degrees. -/
theorem X79_deg (c : Dev nD) : X m c 79 (Proc.devRef .tc main_v61) = Cert.Gcn.deg (F := F) (m ((c.tc : Thread nD τ).loc main_arg1)) := by
  rw [X_step m c 79 73 6 rfl]
  simp only [ValueP.ops, List.drop_zero, List.drop_succ_cons, List.take_succ_cons, List.take_zero]
  after_results
  rw [X73_dst m c]
  rfl
theorem X79_src (c : Dev nD) : X m c 79 (Proc.devRef .tc main_v52) = Cert.Gcn.src (F := F) (m ((c.tc : Thread nD τ).loc main_arg1)) := by
  rw [X_step m c 79 73 6 rfl]
  simp only [ValueP.ops, List.drop_zero, List.drop_succ_cons, List.take_succ_cons, List.take_zero]
  after_results
  exact X73_src m c
theorem X79_dst (c : Dev nD) : X m c 79 (Proc.devRef .tc main_v56) = Cert.Gcn.dst (F := F) (m ((c.tc : Thread nD τ).loc main_arg1)) := by
  rw [X_step m c 79 73 6 rfl]
  simp only [ValueP.ops, List.drop_zero, List.drop_succ_cons, List.take_succ_cons, List.take_zero]
  after_results
  exact X73_dst m c
theorem X79_h2 (c : Dev nD) : X m c 79 (Proc.devRef .tc main_v57) = Cert.Gcn.lin2 (F := F) (Cert.Gcn.hidden (F := F) (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) := by
  rw [X_step m c 79 73 6 rfl]
  simp only [ValueP.ops, List.drop_zero, List.drop_succ_cons, List.take_succ_cons, List.take_zero]
  after_results
  exact X73_h2 m c

/-! ### Operations 80 … 87 -/

/-- After operation 87: the inverse square roots of the degrees. -/
theorem X87_dinv (c : Dev nD) : X m c 87 (Proc.devRef .tc main_v65) = Cert.Gcn.dinv (F := F) (m ((c.tc : Thread nD τ).loc main_arg1)) := by
  rw [X_step m c 87 79 8 rfl]
  simp only [ValueP.ops, List.drop_zero, List.drop_succ_cons, List.take_succ_cons, List.take_zero]
  after_results
  rw [X79_deg m c]
  rfl
theorem X87_src (c : Dev nD) : X m c 87 (Proc.devRef .tc main_v52) = Cert.Gcn.src (F := F) (m ((c.tc : Thread nD τ).loc main_arg1)) := by
  rw [X_step m c 87 79 8 rfl]
  simp only [ValueP.ops, List.drop_zero, List.drop_succ_cons, List.take_succ_cons, List.take_zero]
  after_results
  exact X79_src m c
theorem X87_dst (c : Dev nD) : X m c 87 (Proc.devRef .tc main_v56) = Cert.Gcn.dst (F := F) (m ((c.tc : Thread nD τ).loc main_arg1)) := by
  rw [X_step m c 87 79 8 rfl]
  simp only [ValueP.ops, List.drop_zero, List.drop_succ_cons, List.take_succ_cons, List.take_zero]
  after_results
  exact X79_dst m c
theorem X87_h2 (c : Dev nD) : X m c 87 (Proc.devRef .tc main_v57) = Cert.Gcn.lin2 (F := F) (Cert.Gcn.hidden (F := F) (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) := by
  rw [X_step m c 87 79 8 rfl]
  simp only [ValueP.ops, List.drop_zero, List.drop_succ_cons, List.take_succ_cons, List.take_zero]
  after_results
  exact X79_h2 m c

/-! ### Operations 88 … 106 -/

/-- After operation 106: the edges' normalisation. -/
theorem X106_norm (c : Dev nD) : X m c 106 (Proc.devRef .tc main_v80) = Cert.Gcn.norm (F := F) (m ((c.tc : Thread nD τ).loc main_arg1)) := by
  rw [X_step m c 106 87 19 rfl]
  simp only [ValueP.ops, List.drop_zero, List.drop_succ_cons, List.take_succ_cons, List.take_zero]
  after_results
  rw [X87_dinv m c, X87_src m c, X87_dst m c]
  rfl
theorem X106_src (c : Dev nD) : X m c 106 (Proc.devRef .tc main_v52) = Cert.Gcn.src (F := F) (m ((c.tc : Thread nD τ).loc main_arg1)) := by
  rw [X_step m c 106 87 19 rfl]
  simp only [ValueP.ops, List.drop_zero, List.drop_succ_cons, List.take_succ_cons, List.take_zero]
  after_results
  exact X87_src m c
theorem X106_dst (c : Dev nD) : X m c 106 (Proc.devRef .tc main_v56) = Cert.Gcn.dst (F := F) (m ((c.tc : Thread nD τ).loc main_arg1)) := by
  rw [X_step m c 106 87 19 rfl]
  simp only [ValueP.ops, List.drop_zero, List.drop_succ_cons, List.take_succ_cons, List.take_zero]
  after_results
  exact X87_dst m c
theorem X106_h2 (c : Dev nD) : X m c 106 (Proc.devRef .tc main_v57) = Cert.Gcn.lin2 (F := F) (Cert.Gcn.hidden (F := F) (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) := by
  rw [X_step m c 106 87 19 rfl]
  simp only [ValueP.ops, List.drop_zero, List.drop_succ_cons, List.take_succ_cons, List.take_zero]
  after_results
  exact X87_h2 m c

/-! ### Operations 107 … 122 -/

/-- After operation 122: the second propagation step. -/
theorem X122_agg2 (c : Dev nD) : X m c 122 (Proc.devRef .tc main_v93) = Cert.Gcn.agg16 (F := F) (m ((c.tc : Thread nD τ).loc main_arg1)) (Cert.Gcn.lin2 (F := F) (Cert.Gcn.hidden (F := F) (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) := by
  rw [X_step m c 122 106 16 rfl]
  simp only [ValueP.ops, List.drop_zero, List.drop_succ_cons, List.take_succ_cons, List.take_zero]
  after_results
  rw [X106_src m c, X106_dst m c, X106_h2 m c, X106_norm m c]
  rfl

/-! ### Operations 123 … 125 -/

/-- After operation 125: the second aggregate plus the bias row. -/
theorem X125_biased (c : Dev nD) : X m c 125 (Proc.devRef .tc main_v96) = Cert.Gcn.addBias16 (F := F) (Cert.Gcn.agg16 (F := F) (m ((c.tc : Thread nD τ).loc main_arg1)) (Cert.Gcn.lin2 (F := F) (Cert.Gcn.hidden (F := F) (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)))) (Cert.Gcn.row16 (F := F) (m ((c.tc : Thread nD τ).loc main_arg5))) := by
  rw [X_step m c 125 122 3 rfl]
  simp only [ValueP.ops, List.drop_zero, List.drop_succ_cons, List.take_succ_cons, List.take_zero]
  after_results
  rw [X122_agg2 m c, X_arg5 m c 122]
  rfl

/-! ### The last stage in pieces

`log_softmax` is an outlined function: its operations read and write through typed references, whose transport along a
reflexive type equation is the identity (`toBuf_self`, `ofBuf_self`).  The two reductions over the columns are read
with that transport removed by hand; the pointwise operations around them meet their pieces by unfolding. -/

theorem toBuf_self (r : Ref sig .tc) (p1 : r.ty = r.ty) (p2 : r.space ≠ .host) (p3 : r.isScoped = false) (v : r.ty.Contents (Elt F)) :
    (TRef.of (sig := sig) (T := r.ty) r p1 p2 p3).toBuf v = v := rfl
theorem ofBuf_self (r : Ref sig .tc) (p1 : r.ty = r.ty) (p2 : r.space ≠ .host) (p3 : r.isScoped = false) (v : r.ty.Contents (Elt F)) :
    (TRef.of (sig := sig) (T := r.ty) r p1 p2 p3).ofBuf v = v := rfl

/-- The maximum over the columns from `-∞`. -/
def rowReduceMax (v : Cert.Gcn.FT F S100000x16) : Cert.Gcn.FT F S100000 :=
  Host.reduce FloatOps.maximumf v (constant (F := F) S_ .f32 0xFF800000#32) reducesTo_S100000x16_S100000_d1 h_S_
/-- The outer maximum with `-∞`. -/
def rowMaxOf (r : Cert.Gcn.FT F S100000) : Cert.Gcn.FT F S100000 :=
  maximumf (broadcastInDim S100000 ![] bcast_S_S100000 (constant (F := F) S_ .f32 0xFF800000#32)) r
/-- The sum over the columns of the exponentials. -/
def rowSumExp (s : Cert.Gcn.FT F S100000x16) : Cert.Gcn.FT F S100000 :=
  Host.reduceAdd (Host.exp s) (constant (F := F) S_ .f32 0x00000000#32) reducesTo_S100000x16_S100000_d1 h_S_
/-- `s` minus the logarithm of a per-row value. -/
def lsmTail (s : Cert.Gcn.FT F S100000x16) (r : Cert.Gcn.FT F S100000) : Cert.Gcn.FT F S100000x16 :=
  subf s (broadcastInDim S100000x16 ![0, 1] bcast_S100000x1_S100000x16_0_1 (Host.log (broadcastInDim S100000x1 ![0] bcast_S100000_S100000x1_0 r)))

theorem rowMax_eq (v : Cert.Gcn.FT F S100000x16) : Cert.Gcn.rowMax (F := F) v = rowMaxOf (rowReduceMax v) := rfl
theorem lsmOf_eq (s : Cert.Gcn.FT F S100000x16) : Cert.Gcn.lsmOf (F := F) s = lsmTail s (rowSumExp s) := rfl

/-! ### Operations 126 … 127: the maximum over the columns -/

theorem X127_red_of (c : Dev nD) : X m c 127 (Proc.devRef .tc main_call3_v0) = rowReduceMax (F := F) (X m c 125 (Proc.devRef .tc main_v96)) := by
  rw [X_step m c 127 125 2 rfl]
  simp only [ValueP.ops, List.drop_zero, List.drop_succ_cons, List.take_succ_cons, List.take_zero]
  after_results
  generalize X m c 125 (Proc.devRef .tc main_v96) = B
  exact (toBuf_self main_call3_v0 _ _ _ _).trans (congrArg₂ (fun x v => Host.reduce FloatOps.maximumf x v reducesTo_S100000x16_S100000_d1 h_S_)
    (ofBuf_self main_v96 _ _ _ B) ((ofBuf_self main_call3_cst _ _ _ _).trans (toBuf_self main_call3_cst _ _ _ _)))
theorem X127_biased (c : Dev nD) : X m c 127 (Proc.devRef .tc main_v96) = Cert.Gcn.addBias16 (F := F) (Cert.Gcn.agg16 (F := F) (m ((c.tc : Thread nD τ).loc main_arg1)) (Cert.Gcn.lin2 (F := F) (Cert.Gcn.hidden (F := F) (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)))) (Cert.Gcn.row16 (F := F) (m ((c.tc : Thread nD τ).loc main_arg5))) := by
  rw [X_step m c 127 125 2 rfl]
  simp only [ValueP.ops, List.drop_zero, List.drop_succ_cons, List.take_succ_cons, List.take_zero]
  after_results
  exact X125_biased m c

/-! ### Operations 128 … 130: the row maxima -/

theorem X130_rowmax_of (c : Dev nD) : X m c 130 (Proc.devRef .tc main_call3_v2) = rowMaxOf (F := F) (X m c 127 (Proc.devRef .tc main_call3_v0)) := by
  rw [X_step m c 130 127 3 rfl]
  simp only [ValueP.ops, List.drop_zero, List.drop_succ_cons, List.take_succ_cons, List.take_zero]
  after_results
  generalize X m c 127 (Proc.devRef .tc main_call3_v0) = R
  rfl
theorem X130_rowmax (c : Dev nD) : X m c 130 (Proc.devRef .tc main_call3_v2) = Cert.Gcn.rowMax (F := F) (Cert.Gcn.addBias16 (F := F) (Cert.Gcn.agg16 (F := F) (m ((c.tc : Thread nD τ).loc main_arg1)) (Cert.Gcn.lin2 (F := F) (Cert.Gcn.hidden (F := F) (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)))) (Cert.Gcn.row16 (F := F) (m ((c.tc : Thread nD τ).loc main_arg5)))) :=
  (X130_rowmax_of m c).trans ((congrArg (rowMaxOf (F := F)) ((X127_red_of m c).trans (congrArg (rowReduceMax (F := F)) (X125_biased m c)))).trans (rowMax_eq _).symm)
theorem X130_biased (c : Dev nD) : X m c 130 (Proc.devRef .tc main_v96) = Cert.Gcn.addBias16 (F := F) (Cert.Gcn.agg16 (F := F) (m ((c.tc : Thread nD τ).loc main_arg1)) (Cert.Gcn.lin2 (F := F) (Cert.Gcn.hidden (F := F) (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)))) (Cert.Gcn.row16 (F := F) (m ((c.tc : Thread nD τ).loc main_arg5))) := by
  rw [X_step m c 130 127 3 rfl]
  simp only [ValueP.ops, List.drop_zero, List.drop_succ_cons, List.take_succ_cons, List.take_zero]
  after_results
  exact X127_biased m c

/-! ### Operations 131 … 133: the shifted array -/

theorem X133_shifted_of (c : Dev nD) : X m c 133 (Proc.devRef .tc main_call3_v5)
    = Cert.Gcn.shiftBy (F := F) (X m c 130 (Proc.devRef .tc main_v96)) (X m c 130 (Proc.devRef .tc main_call3_v2)) := by
  rw [X_step m c 133 130 3 rfl]
  simp only [ValueP.ops, List.drop_zero, List.drop_succ_cons, List.take_succ_cons, List.take_zero]
  after_results
  generalize X m c 130 (Proc.devRef .tc main_v96) = B
  generalize X m c 130 (Proc.devRef .tc main_call3_v2) = M
  rfl
theorem X133_shifted (c : Dev nD) : X m c 133 (Proc.devRef .tc main_call3_v5) = Cert.Gcn.shifted (F := F) (Cert.Gcn.addBias16 (F := F) (Cert.Gcn.agg16 (F := F) (m ((c.tc : Thread nD τ).loc main_arg1)) (Cert.Gcn.lin2 (F := F) (Cert.Gcn.hidden (F := F) (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)))) (Cert.Gcn.row16 (F := F) (m ((c.tc : Thread nD τ).loc main_arg5)))) :=
  (X133_shifted_of m c).trans (congrArg₂ (Cert.Gcn.shiftBy (F := F)) (X130_biased m c) (X130_rowmax m c))

/-! ### Operations 134 … 136: the row sums of the exponentials -/

theorem X136_sum_of (c : Dev nD) : X m c 136 (Proc.devRef .tc main_call3_v7) = rowSumExp (F := F) (X m c 133 (Proc.devRef .tc main_call3_v5)) := by
  rw [X_step m c 136 133 3 rfl]
  simp only [ValueP.ops, List.drop_zero, List.drop_succ_cons, List.take_succ_cons, List.take_zero]
  after_results
  generalize X m c 133 (Proc.devRef .tc main_call3_v5) = S
  exact (toBuf_self main_call3_v7 _ _ _ _).trans (congrArg₂ (fun x v => Host.reduceAdd x v reducesTo_S100000x16_S100000_d1 h_S_)
    ((ofBuf_self main_call3_v6 _ _ _ _).trans ((toBuf_self main_call3_v6 _ _ _ _).trans (congrArg (fun z => Host.exp z) (ofBuf_self main_call3_v5 _ _ _ S))))
    ((ofBuf_self main_call3_cst_1 _ _ _ _).trans (toBuf_self main_call3_cst_1 _ _ _ _)))
theorem X136_shifted (c : Dev nD) : X m c 136 (Proc.devRef .tc main_call3_v5) = Cert.Gcn.shifted (F := F) (Cert.Gcn.addBias16 (F := F) (Cert.Gcn.agg16 (F := F) (m ((c.tc : Thread nD τ).loc main_arg1)) (Cert.Gcn.lin2 (F := F) (Cert.Gcn.hidden (F := F) (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)))) (Cert.Gcn.row16 (F := F) (m ((c.tc : Thread nD τ).loc main_arg5)))) := by
  rw [X_step m c 136 133 3 rfl]
  simp only [ValueP.ops, List.drop_zero, List.drop_succ_cons, List.take_succ_cons, List.take_zero]
  after_results
  exact X133_shifted m c

/-! ### Operations 137 … 140: the logarithm and the difference -/

theorem X140_of (c : Dev nD) : X m c 140 (Proc.devRef .tc main_v97) = lsmTail (F := F) (X m c 136 (Proc.devRef .tc main_call3_v5)) (X m c 136 (Proc.devRef .tc main_call3_v7)) := by
  rw [X_step m c 140 136 4 rfl]
  simp only [ValueP.ops, List.drop_zero, List.drop_succ_cons, List.take_succ_cons, List.take_zero]
  after_results
  generalize X m c 136 (Proc.devRef .tc main_call3_v5) = S
  generalize X m c 136 (Proc.devRef .tc main_call3_v7) = R
  rfl
/-- After operation 140: the result. -/
theorem X140_out (c : Dev nD) : X m c 140 (Proc.devRef .tc main_v97) = Cert.Gcn.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (X140_of m c).trans ((congrArg₂ (lsmTail (F := F)) (X136_shifted m c) ((X136_sum_of m c).trans (congrArg (rowSumExp (F := F)) (X133_shifted m c)))).trans (lsmOf_eq _).symm)

/-! ## The run -/

/-- On every device, from any memory with zero counters: every weakly fair execution of @main terminates with the
    result at the graph convolution of the arguments, the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v97) = Cert.Gcn.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5)) := by
  have hlen : (ValueP.ops (F := F)).take 140 = ValueP.ops := List.take_of_length_le (le_of_eq (rfl : (ValueP.ops (F := F)).length = 140))
  have hX : ∀ c : Dev nD, after (ValueP.ops (F := F)) (launchContents m c) = X m c 140 := fun c => by unfold X; rw [hlen]
  refine (θ_run defs _ _).mono (fun _ h c => ?_)
    (run_seq ValueP.scopedRefs_eq ValueP.scopedSems_eq defs main (fun _ => ValueP.ops) ValueP.main_eq (fun _ => ValueP.ops_sub) m ρ)
  exact ⟨((h c main_v97).trans (congrFun (hX c) _)).trans (X140_out m c),
    ((h c main_arg0).trans (congrFun (hX c) _)).trans (X_arg0 m c 140),
    ((h c main_arg1).trans (congrFun (hX c) _)).trans (X_arg1 m c 140),
    ((h c main_arg2).trans (congrFun (hX c) _)).trans (X_arg2 m c 140),
    ((h c main_arg3).trans (congrFun (hX c) _)).trans (X_arg3 m c 140),
    ((h c main_arg4).trans (congrFun (hX c) _)).trans (X_arg4 m c 140),
    ((h c main_arg5).trans (congrFun (hX c) _)).trans (X_arg5 m c 140)⟩

end Cert.ReferenceIdeal.RefRun

end
-- ==== Proof.lean ====
/-
  A two-layer graph convolution — `log_softmax (Â · relu (Â · (x·W1) + b1) · W2 + b2)` with `Â` the degree-normalised
  adjacency of the edge list with self-loops, applied by gather · scale · scatter-add — computed by a kernel program
  against its plain reference, at the ideal instance (floats as extended reals, operations exact).

  Both programs compute the graph's structure and the two propagation steps with the same host operations; they differ
  in the four dense stages, which the kernel program runs as pipelined kernels over ten blocks of 10000 rows: the two
  products (a change of float format is the identity at the ideal instance, and a block's product is the block of the
  whole product), bias + relu, and bias + log-softmax (row by row the host's `log_softmax`).  So both results are ONE
  function of the arguments, `Cert.Gcn.out` (Proof/Spec.lean):
    * the kernel program's run names its result buffer (Proof/KRun.lean), each region's result array is the dense stage of
      the arrays it read (Proof/Lin1.lean, Relu.lean, Lin2.lean, LogSoftmax.lean), and the fold through the nine segments
      of @main composes them (Proof/Fold.lean);
    * the reference's run is read back stage by stage (Proof/RefRun.lean, over the operation list of Proof/RunP.lean).
  The equality needs no finiteness: the two sides are the same operations on the extended reals.  The frames are the
  generated ones; the ideal pass rewrote nothing, so `preserves` is trivial.
-/
import proofs.«127576_j27934467293291_1_alg».proof.Defs
import proofs.«127576_j27934467293291_1_alg».proof.Proof.Gen.Kernel
import proofs.«127576_j27934467293291_1_alg».proof.Proof.Gen.Kernel.Frame
import proofs.«127576_j27934467293291_1_alg».proof.Proof.Gen.KernelIdeal
import proofs.«127576_j27934467293291_1_alg».proof.Proof.Gen.KernelIdeal.Frame
import proofs.«127576_j27934467293291_1_alg».proof.Proof.Gen.ReferenceIdeal
import proofs.«127576_j27934467293291_1_alg».proof.Proof.Gen.Pre_finite_inputs
import proofs.«127576_j27934467293291_1_alg».proof.Proof.KRun
import proofs.«127576_j27934467293291_1_alg».proof.Proof.Fold
import proofs.«127576_j27934467293291_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- Both programs end with the result at `Cert.Gcn.out` of arguments that agree. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.KFold.W9_out m ρ c), (h c).2⟩) (Cert.KernelIdeal.KRun.run_out m ρ), ?_⟩
  refine (θ_run Cert.ReferenceIdeal.defs _ _).mono (fun r h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
